-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v29)) (v1 : (c : Dev Cert.KernelIdeal.nD) → Buf (Elt Ideal) ((c.tc : Thread Cert.KernelIdeal.nD Cert.KernelIdeal.τ).loc Cert.KernelIdeal.main_v30)) (v2 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_v30) = v1 c
          ∧ r.2.mem ((c.tc : Thread Cert.KernelIdeal.nD Cert.KernelIdeal.τ).loc Cert.KernelIdeal.main_v31) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_v43) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x16x1 : Shape := ⟨3, ![8192, 16, 1]⟩
abbrev S8192x16x3 : Shape := ⟨3, ![8192, 16, 3]⟩
abbrev S8192x16x5 : Shape := ⟨3, ![8192, 16, 5]⟩
abbrev S32768x2 : Shape := ⟨2, ![32768, 2]⟩
abbrev S32768x9x19x9 : Shape := ⟨4, ![32768, 9, 19, 9]⟩
abbrev S2x32 : Shape := ⟨2, ![2, 32]⟩
abbrev S32 : Shape := ⟨1, ![32]⟩
abbrev S32x32 : Shape := ⟨2, ![32, 32]⟩
abbrev S32x4864 : Shape := ⟨2, ![32, 4864]⟩
abbrev S32768 : Shape := ⟨1, ![32768]⟩
abbrev S_ : Shape := ⟨0, ![]⟩

class Facts : Prop where
  bcast_S_S8192x16x1 : S_.BroadcastsInDim S8192x16x1 (![] : Fin 0 → Fin S8192x16x1.rank)
  reducesTo_S8192x16x1_S_d0_1_2 : S8192x16x1.ReducesTo [0, 1, 2] S_
  h_S_ : 0 < S_.numel
  bcast_S_S8192x16x3 : S_.BroadcastsInDim S8192x16x3 (![] : Fin 0 → Fin S8192x16x3.rank)
  reducesTo_S8192x16x3_S_d0_1_2 : S8192x16x3.ReducesTo [0, 1, 2] S_
  bcast_S_S8192x16x5 : S_.BroadcastsInDim S8192x16x5 (![] : Fin 0 → Fin S8192x16x5.rank)
  reducesTo_S8192x16x5_S_d0_1_2 : S8192x16x5.ReducesTo [0, 1, 2] S_
  bcast_S_S32768x2 : S_.BroadcastsInDim S32768x2 (![] : Fin 0 → Fin S32768x2.rank)
  reducesTo_S32768x2_S_d0_1 : S32768x2.ReducesTo [0, 1] S_
  bcast_S_S32768x9x19x9 : S_.BroadcastsInDim S32768x9x19x9 (![] : Fin 0 → Fin S32768x9x19x9.rank)
  reducesTo_S32768x9x19x9_S_d0_1_2_3 : S32768x9x19x9.ReducesTo [0, 1, 2, 3] S_
  bcast_S_S2x32 : S_.BroadcastsInDim S2x32 (![] : Fin 0 → Fin S2x32.rank)
  reducesTo_S2x32_S_d0_1 : S2x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x4864 : S_.BroadcastsInDim S32x4864 (![] : Fin 0 → Fin S32x4864.rank)
  reducesTo_S32x4864_S_d0_1 : S32x4864.ReducesTo [0, 1] S_

variable [Facts]

def fn_part2 {F : FTy → Type} [FloatOps F] (main_arg7 : FVec F S32x32 .f32) (main_arg8 : FVec F S32 .f32) (main_arg9 : FVec F S32x4864 .f32) (main_v33 : IVec S_ 1) : IVec S_ 1 :=
  let main_v34 : FVec F S32x32 .f32 := Host.absf main_arg7
  let main_cst_12 : FVec F S_ .f32 := constant S_ .f32 0x7F800000#32
  let main_v35 : FVec F S32x32 .f32 := broadcastInDim S32x32 ![] bcast_S_S32x32 main_cst_12
  let main_v36 : IVec S32x32 1 := cmpf .olt main_v34 main_v35
  let main_c_13 : IVec S_ 1 := constantI S_ 1 1#1
  let main_v37 : IVec S_ 1 := (fun x v => Host.reduce IntOp.andi x v reducesTo_S32x32_S_d0_1 h_S_) main_v36 main_c_13
  let main_v38 : IVec S_ 1 := andi main_v33 main_v37
  let main_v39 : FVec F S32 .f32 := Host.absf main_arg8
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x4864 .f32 := Host.absf main_arg9
  let main_cst_16 : FVec F S_ .f32 := constant S_ .f32 0x7F800000#32
  let main_v45 : FVec F S32x4864 .f32 := broadcastInDim S32x4864 ![] bcast_S_S32x4864 main_cst_16
  let main_v46 : IVec S32x4864 1 := cmpf .olt main_v44 main_v45
  let main_c_17 : IVec S_ 1 := constantI S_ 1 1#1
  let main_v47 : IVec S_ 1 := (fun x v => Host.reduce IntOp.andi x v reducesTo_S32x4864_S_d0_1 h_S_) main_v46 main_c_17
  let main_v48 : IVec S_ 1 := andi main_v43 main_v47
  main_v48

def fn_part1 {F : FTy → Type} [FloatOps F] (main_arg4 : FVec F S32768x9x19x9 .f32) (main_arg5 : FVec F S2x32 .f32) (main_arg6 : FVec F S32 .f32) (main_arg7 : FVec F S32x32 .f32) (main_arg8 : FVec F S32 .f32) (main_arg9 : FVec F S32x4864 .f32) (main_v13 : IVec S_ 1) (main_v16 : IVec S32768x2 1) : IVec S_ 1 :=
  let main_c_5 : IVec S_ 1 := constantI S_ 1 1#1
  let main_v17 : IVec S_ 1 := (fun x v => Host.reduce IntOp.andi x v reducesTo_S32768x2_S_d0_1 h_S_) main_v16 main_c_5
  let main_v18 : IVec S_ 1 := andi main_v13 main_v17
  let main_v19 : FVec F S32768x9x19x9 .f32 := Host.absf main_arg4
  let main_cst_6 : FVec F S_ .f32 := constant S_ .f32 0x7F800000#32
  let main_v20 : FVec F S32768x9x19x9 .f32 := broadcastInDim S32768x9x19x9 ![] bcast_S_S32768x9x19x9 main_cst_6
  let main_v21 : IVec S32768x9x19x9 1 := cmpf .olt main_v19 main_v20
  let main_c_7 : IVec S_ 1 := constantI S_ 1 1#1
  let main_v22 : IVec S_ 1 := (fun x v => Host.reduce IntOp.andi x v reducesTo_S32768x9x19x9_S_d0_1_2_3 h_S_) main_v21 main_c_7
  let main_v23 : IVec S_ 1 := andi main_v18 main_v22
  let main_v24 : FVec F S2x32 .f32 := Host.absf main_arg5
  let main_cst_8 : FVec F S_ .f32 := constant S_ .f32 0x7F800000#32
  let main_v25 : FVec F S2x32 .f32 := broadcastInDim S2x32 ![] bcast_S_S2x32 main_cst_8
  let main_v26 : IVec S2x32 1 := cmpf .olt main_v24 main_v25
  let main_c_9 : IVec S_ 1 := constantI S_ 1 1#1
  let main_v27 : IVec S_ 1 := (fun x v => Host.reduce IntOp.andi x v reducesTo_S2x32_S_d0_1 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg7 main_arg8 main_arg9 main_v33

def fn {F : FTy → Type} [FloatOps F] (main_arg0 : FVec F S8192x16x1 .f32) (main_arg1 : FVec F S8192x16x3 .f32) (main_arg2 : FVec F S8192x16x5 .f32) (main_arg3 : FVec F S32768x2 .f32) (main_arg4 : FVec F S32768x9x19x9 .f32) (main_arg5 : FVec F S2x32 .f32) (main_arg6 : FVec F S32 .f32) (main_arg7 : FVec F S32x32 .f32) (main_arg8 : FVec F S32 .f32) (main_arg9 : FVec F S32x4864 .f32) (main_arg10 : IVec S32768 32) (main_arg11 : IVec S32768 32) : IVec S_ 1 :=
  let main_v0 : FVec F S8192x16x1 .f32 := Host.absf main_arg0
  let main_cst : FVec F S_ .f32 := constant S_ .f32 0x7F800000#32
  let main_v1 : FVec F S8192x16x1 .f32 := broadcastInDim S8192x16x1 ![] bcast_S_S8192x16x1 main_cst
  let main_v2 : IVec S8192x16x1 1 := cmpf .olt main_v0 main_v1
  let main_c : IVec S_ 1 := constantI S_ 1 1#1
  let main_v3 : IVec S_ 1 := (fun x v => Host.reduce IntOp.andi x v reducesTo_S8192x16x1_S_d0_1_2 h_S_) main_v2 main_c
  let main_v4 : FVec F S8192x16x3 .f32 := Host.absf main_arg1
  let main_cst_0 : FVec F S_ .f32 := constant S_ .f32 0x7F800000#32
  let main_v5 : FVec F S8192x16x3 .f32 := broadcastInDim S8192x16x3 ![] bcast_S_S8192x16x3 main_cst_0
  let main_v6 : IVec S8192x16x3 1 := cmpf .olt main_v4 main_v5
  let main_c_1 : IVec S_ 1 := constantI S_ 1 1#1
  let main_v7 : IVec S_ 1 := (fun x v => Host.reduce IntOp.andi x v reducesTo_S8192x16x3_S_d0_1_2 h_S_) main_v6 main_c_1
  let main_v8 : IVec S_ 1 := andi main_v3 main_v7
  let main_v9 : FVec F S8192x16x5 .f32 := Host.absf main_arg2
  let main_cst_2 : FVec F S_ .f32 := constant S_ .f32 0x7F800000#32
  let main_v10 : FVec F S8192x16x5 .f32 := broadcastInDim S8192x16x5 ![] bcast_S_S8192x16x5 main_cst_2
  let main_v11 : IVec S8192x16x5 1 := cmpf .olt main_v9 main_v10
  let main_c_3 : IVec S_ 1 := constantI S_ 1 1#1
  let main_v12 : IVec S_ 1 := (fun x v => Host.reduce IntOp.andi x v reducesTo_S8192x16x5_S_d0_1_2 h_S_) main_v11 main_c_3
  let main_v13 : IVec S_ 1 := andi main_v8 main_v12
  let main_v14 : FVec F S32768x2 .f32 := Host.absf main_arg3
  let main_cst_4 : FVec F S_ .f32 := constant S_ .f32 0x7F800000#32
  let main_v15 : FVec F S32768x2 .f32 := broadcastInDim S32768x2 ![] bcast_S_S32768x2 main_cst_4
  let main_v16 : IVec S32768x2 1 := cmpf .olt main_v14 main_v15
  fn_part1 (F := F) main_arg4 main_arg5 main_arg6 main_arg7 main_arg8 main_arg9 main_v13 main_v16
-- ==== Kernel.lean ====
abbrev S8192x16x1 : Shape := ⟨3, ![8192, 16, 1]⟩
abbrev S8192x16x3 : Shape := ⟨3, ![8192, 16, 3]⟩
abbrev S8192x16x5 : Shape := ⟨3, ![8192, 16, 5]⟩
abbrev S32768x2 : Shape := ⟨2, ![32768, 2]⟩
abbrev S32768x9x19x9 : Shape := ⟨4, ![32768, 9, 19, 9]⟩
abbrev S2x32 : Shape := ⟨2, ![2, 32]⟩
abbrev S32 : Shape := ⟨1, ![32]⟩
abbrev S32x32 : Shape := ⟨2, ![32, 32]⟩
abbrev S32x4864 : Shape := ⟨2, ![32, 4864]⟩
abbrev S32768 : Shape := ⟨1, ![32768]⟩
abbrev S_ : Shape := ⟨0, ![]⟩
abbrev S32768x1 : Shape := ⟨2, ![32768, 1]⟩
abbrev S32768x16x1 : Shape := ⟨3, ![32768, 16, 1]⟩
abbrev S32768x16x3 : Shape := ⟨3, ![32768, 16, 3]⟩
abbrev S32768x16x5 : Shape := ⟨3, ![32768, 16, 5]⟩
abbrev S32768x16x9 : Shape := ⟨3, ![32768, 16, 9]⟩
abbrev S32768x9x171 : Shape := ⟨3, ![32768, 9, 171]⟩
abbrev S32768x16x171 : Shape := ⟨3, ![32768, 16, 171]⟩
abbrev S256x16x9 : Shape := ⟨3, ![256, 16, 9]⟩
abbrev S256x9x171 : Shape := ⟨3, ![256, 9, 171]⟩
abbrev S256x16x171 : Shape := ⟨3, ![256, 16, 171]⟩
abbrev S32768x304x9 : Shape := ⟨3, ![32768, 304, 9]⟩
abbrev S128x2 : Shape := ⟨2, ![128, 2]⟩
abbrev S128x304x9 : Shape := ⟨3, ![128, 304, 9]⟩
abbrev S128x16x9 : Shape := ⟨3, ![128, 16, 9]⟩
abbrev S128x32 : Shape := ⟨2, ![128, 32]⟩
abbrev S1x32 : Shape := ⟨2, ![1, 32]⟩
abbrev S128x4864 : Shape := ⟨2, ![128, 4864]⟩
abbrev S128x16x304 : Shape := ⟨3, ![128, 16, 304]⟩
abbrev S8192x16x9 : Shape := ⟨3, ![8192, 16, 9]⟩

abbrev nBuf : Space → Nat
  | .hbm => 51
  | .vmem => 17
  | .smem => 0
  | _ => 0

abbrev bufTy : (tb : Table) → Fin (tcTables nBuf tb) → BufTy
  | .hbm, ⟨0, _⟩ => ⟨S8192x16x1, .f32⟩
  | .hbm, ⟨1, _⟩ => ⟨S8192x16x3, .f32⟩
  | .hbm, ⟨2, _⟩ => ⟨S8192x16x5, .f32⟩
  | .hbm, ⟨3, _⟩ => ⟨S32768x2, .f32⟩
  | .hbm, ⟨4, _⟩ => ⟨S32768x9x19x9, .f32⟩
  | .hbm, ⟨5, _⟩ => ⟨S2x32, .f32⟩
  | .hbm, ⟨6, _⟩ => ⟨S32, .f32⟩
  | .hbm, ⟨7, _⟩ => ⟨S32x32, .f32⟩
  | .hbm, ⟨8, _⟩ => ⟨S32, .f32⟩
  | .hbm, ⟨9, _⟩ => ⟨S32x4864, .f32⟩
  | .hbm, ⟨10, _⟩ => ⟨S32768, .i32⟩
  | .hbm, ⟨11, _⟩ => ⟨S32768, .i32⟩
  | .hbm, ⟨12, _⟩ => ⟨S_, .i32⟩
  | .hbm, ⟨13, _⟩ => ⟨S32768, .i32⟩
  | .hbm, ⟨14, _⟩ => ⟨S32768, .i1⟩
  | .hbm, ⟨15, _⟩ => ⟨S_, .i32⟩
  | .hbm, ⟨16, _⟩ => ⟨S32768, .i32⟩
  | .hbm, ⟨17, _⟩ => ⟨S32768, .i32⟩
  | .hbm, ⟨18, _⟩ => ⟨S32768, .i32⟩
  | .hbm, ⟨19, _⟩ => ⟨S32768x1, .i32⟩
  | .hbm, ⟨20, _⟩ => ⟨S32768x16x1, .f32⟩
  | .hbm, ⟨21, _⟩ => ⟨S_, .i32⟩
  | .hbm, ⟨22, _⟩ => ⟨S32768, .i32⟩
  | .hbm, ⟨23, _⟩ => ⟨S32768, .i1⟩
  | .hbm, ⟨24, _⟩ => ⟨S_, .i32⟩
  | .hbm, ⟨25, _⟩ => ⟨S32768, .i32⟩
  | .hbm, ⟨26, _⟩ => ⟨S32768, .i32⟩
  | .hbm, ⟨27, _⟩ => ⟨S32768, .i32⟩
  | .hbm, ⟨28, _⟩ => ⟨S32768x1, .i32⟩
  | .hbm, ⟨29, _⟩ => ⟨S32768x16x3, .f32⟩
  | .hbm, ⟨30, _⟩ => ⟨S_, .i32⟩
  | .hbm, ⟨31, _⟩ => ⟨S32768, .i32⟩
  | .hbm, ⟨32, _⟩ => ⟨S32768, .i1⟩
  | .hbm, ⟨33, _⟩ => ⟨S_, .i32⟩
  | .hbm, ⟨34, _⟩ => ⟨S32768, .i32⟩
  | .hbm, ⟨35, _⟩ => ⟨S32768, .i32⟩
  | .hbm, ⟨36, _⟩ => ⟨S32768, .i32⟩
  | .hbm, ⟨37, _⟩ => ⟨S32768x1, .i32⟩
  | .hbm, ⟨38, _⟩ => ⟨S32768x16x5, .f32⟩
  | .hbm, ⟨39, _⟩ => ⟨S32768x16x9, .f32⟩
  | .hbm, ⟨40, _⟩ => ⟨S32768x9x171, .f32⟩
  | .hbm, ⟨41, _⟩ => ⟨S32768x16x171, .bf16⟩
  | .hbm, ⟨42, _⟩ => ⟨S32768x304x9, .bf16⟩
  | .hbm, ⟨43, _⟩ => ⟨S32768x16x9, .f32⟩
  | .hbm, ⟨44, _⟩ => ⟨S_, .f32⟩
  | .hbm, ⟨45, _⟩ => ⟨S8192x16x9, .f32⟩
  | .hbm, ⟨46, _⟩ => ⟨S32768x1, .i32⟩
  | .hbm, ⟨47, _⟩ => ⟨S8192x16x9, .f32⟩
  | .hbm, ⟨48, _⟩ => ⟨S8192x16x1, .f32⟩
  | .hbm, ⟨49, _⟩ => ⟨S8192x16x3, .f32⟩
  | .hbm, ⟨50, _⟩ => ⟨S8192x16x5, .f32⟩
  | .local _ .vmem, ⟨0, _⟩ => ⟨S256x16x9, .f32⟩
  | .local _ .vmem, ⟨1, _⟩ => ⟨S256x16x9, .f32⟩
  | .local _ .vmem, ⟨2, _⟩ => ⟨S256x9x171, .f32⟩
  | .local _ .vmem, ⟨3, _⟩ => ⟨S256x9x171, .f32⟩
  | .local _ .vmem, ⟨4, _⟩ => ⟨S256x16x171, .bf16⟩
  | .local _ .vmem, ⟨5, _⟩ => ⟨S256x16x171, .bf16⟩
  | .local _ .vmem, ⟨6, _⟩ => ⟨S128x2, .f32⟩
  | .local _ .vmem, ⟨7, _⟩ => ⟨S128x2, .f32⟩
  | .local _ .vmem, ⟨8, _⟩ => ⟨S128x304x9, .bf16⟩
  | .local _ .vmem, ⟨9, _⟩ => ⟨S128x304x9, .bf16⟩
  | .local _ .vmem, ⟨10, _⟩ => ⟨S2x32, .f32⟩
  | .local _ .vmem, ⟨11, _⟩ => ⟨S32, .f32⟩
  | .local _ .vmem, ⟨12, _⟩ => ⟨S32x32, .f32⟩
  | .local _ .vmem, ⟨13, _⟩ => ⟨S32, .f32⟩
  | .local _ .vmem, ⟨14, _⟩ => ⟨S32x4864, .f32⟩
  | .local _ .vmem, ⟨15, _⟩ => ⟨S128x16x9, .f32⟩
  | .local _ .vmem, ⟨16, _⟩ => ⟨S128x16x9, .f32⟩
  | _, _ => ⟨S8192x16x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c_3 : Ref sig .tc := ⟨.hbm, 30, rfl⟩
abbrev main_v14 : Ref sig .tc := ⟨.hbm, 31, rfl⟩
abbrev main_v15 : Ref sig .tc := ⟨.hbm, 32, rfl⟩
abbrev main_c_4 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg7_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem7_1 : DmaSem sig := 16

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x16x9 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x9x171 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x16x171 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![256], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S128x2 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x304x9 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S2x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S32x4864 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S128x16x9 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  bcast_S_S32768 : S_.BroadcastsInDim S32768 (![] : Fin 0 → Fin S32768.rank)
  bcast_S32768_S32768x1_0 : S32768.BroadcastsInDim S32768x1 (![0] : Fin 1 → Fin S32768x1.rank)
  concatenates_S32768x16x1_S32768x16x3_S32768x16x5_S32768x16x9_d2 : Shape.Concatenates [S32768x16x1, S32768x16x3, S32768x16x5] S32768x16x9 2
  shapeCasts_S32768x9x19x9_S32768x9x171 : S32768x9x19x9.ShapeCasts S32768x9x171
  inb_S256x16x9_S256x16x9_0_0_0 : ∀ a, (![0, 0, 0] : Fin 3 → Nat) a + S256x16x9.size a ≤ S256x16x9.size a
  h_S256x16x9 : 0 < S256x16x9.numel
  shapeCasts_S256x16x9_S256x16x9 : S256x16x9.ShapeCasts S256x16x9
  bitsLt_bf16_f32 : FTy.bits .bf16 < FTy.bits .f32
  inb_S256x9x171_S256x9x171_0_0_0 : ∀ a, (![0, 0, 0] : Fin 3 → Nat) a + S256x9x171.size a ≤ S256x9x171.size a
  h_S256x9x171 : 0 < S256x9x171.numel
  shapeCasts_S256x9x171_S256x9x171 : S256x9x171.ShapeCasts S256x9x171
  inb_S256x16x171_S256x16x171_0_0_0 : ∀ a, (![0, 0, 0] : Fin 3 → Nat) a + S256x16x171.size a ≤ S256x16x171.size a
  h_S256x16x171 : 0 < S256x16x171.numel
  packedbf16_S256x16x171_S256x16x171_0_0_0 : (Rect.unit (s := S256x16x171) ![0, 0, 0] S256x16x171.size inb_S256x16x171_S256x16x171_0_0_0).PackedRows (EltTy.packing .bf16)
  shapeCasts_S32768x16x171_S32768x304x9 : S32768x16x171.ShapeCasts S32768x304x9
  inb_S128x2_S128x2_0_0 : ∀ a, (![0, 0] : Fin 2 → Nat) a + S128x2.size a ≤ S128x2.size a
  h_S128x2 : 0 < S128x2.numel
  inb_S128x304x9_S128x304x9_0_0_0 : ∀ a, (![0, 0, 0] : Fin 3 → Nat) a + S128x304x9.size a ≤ S128x304x9.size a
  h_S128x304x9 : 0 < S128x304x9.numel
  shapeCasts_S128x304x9_S128x304x9 : S128x304x9.ShapeCasts S128x304x9
  inb_S2x32_S2x32_0_0 : ∀ a, (![0, 0] : Fin 2 → Nat) a + S2x32.size a ≤ S2x32.size a
  h_S2x32 : 0 < S2x32.numel
  inb_S32_S32_0 : ∀ a, (![0] : Fin 1 → Nat) a + S32.size a ≤ S32.size a
  h_S32 : 0 < S32.numel
  inb_S32x32_S32x32_0_0 : ∀ a, (![0, 0] : Fin 2 → Nat) a + S32x32.size a ≤ S32x32.size a
  h_S32x32 : 0 < S32x32.numel
  inb_S32x4864_S32x4864_0_0 : ∀ a, (![0, 0] : Fin 2 → Nat) a + S32x4864.size a ≤ S32x4864.size a
  h_S32x4864 : 0 < S32x4864.numel
  shapeCasts_S32_S1x32 : S32.ShapeCasts S1x32
  broadcasts_S1x32_S128x32 : S1x32.Broadcasts S128x32
  shapeCasts_S128x4864_S128x16x304 : S128x4864.ShapeCasts S128x16x304
  inb_S128x16x9_S128x16x9_0_0_0 : ∀ a, (![0, 0, 0] : Fin 3 → Nat) a + S128x16x9.size a ≤ S128x16x9.size a
  h_S128x16x9 : 0 < S128x16x9.numel
  bcast_S_S8192x16x9 : S_.BroadcastsInDim S8192x16x9 (![] : Fin 0 → Fin S8192x16x9.rank)
  slices_S8192x16x9_S8192x16x1_0_0_0 : S8192x16x9.Slices ![0, 0, 0] S8192x16x1
  slices_S8192x16x9_S8192x16x3_0_0_1 : S8192x16x9.Slices ![0, 0, 1] S8192x16x3
  slices_S8192x16x9_S8192x16x5_0_0_4 : S8192x16x9.Slices ![0, 0, 4] S8192x16x5
  gather_S8192x16x1_S32768x1_S32768x16x1_12_0_n_n_0_1_1161_wf : GatherDims.WF S8192x16x1 S32768x1 S32768x16x1 [1, 2] [0] [] [0] [] 1 ![1, 16, 1]
  gather_S8192x16x3_S32768x1_S32768x16x3_12_0_n_n_0_1_1163_wf : GatherDims.WF S8192x16x3 S32768x1 S32768x16x3 [1, 2] [0] [] [0] [] 1 ![1, 16, 3]
  gather_S8192x16x5_S32768x1_S32768x16x5_12_0_n_n_0_1_1165_wf : GatherDims.WF S8192x16x5 S32768x1 S32768x16x5 [1, 2] [0] [] [0] [] 1 ![1, 16, 5]
  dot_S256x16x9_S256x9x171_S256x16x171_2_1_1_2_0_0_wf : DotDims.WF S256x16x9 S256x9x171 S256x16x171 [2] [1] [1] [2] [0] [0]
  dot_S128x2_S2x32_S128x32_1_0_0_1_n_n_wf : DotDims.WF S128x2 S2x32 S128x32 [1] [0] [0] [1] [] []
  dot_S128x32_S32x32_S128x32_1_0_0_1_n_n_wf : DotDims.WF S128x32 S32x32 S128x32 [1] [0] [0] [1] [] []
  dot_S128x32_S32x4864_S128x4864_1_0_0_1_n_n_wf : DotDims.WF S128x32 S32x4864 S128x4864 [1] [0] [0] [1] [] []
  dot_S128x16x304_S128x304x9_S128x16x9_2_1_1_2_0_0_wf : DotDims.WF S128x16x304 S128x304x9 S128x16x9 [2] [1] [1] [2] [0] [0]
  scatter_S8192x16x9_S32768x1_S32768x16x9_12_0_0_1_wf : ScatterDims.WF S8192x16x9 S32768x1 S32768x16x9 [1, 2] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x16x9.size a ≤ S32768x16x9.size a
  hwx0_0 : ∀ i : grid0.Coords, EltTy.bits .f32 = 32 ∨ (Rect.block (s := S32768x16x9) S256x16x9.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x9x171.size a ≤ S32768x9x171.size a
  hwx0_1 : ∀ i : grid0.Coords, EltTy.bits .f32 = 32 ∨ (Rect.block (s := S32768x9x171) S256x9x171.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x16x171.size a ≤ S32768x16x171.size a
  hwx0_2 : ∀ i : grid0.Coords, EltTy.bits .bf16 = 32 ∨ (Rect.block (s := S32768x16x171) S256x16x171.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x2.size a ≤ S32768x2.size a
  hwx1_0 : ∀ i : grid1.Coords, EltTy.bits .f32 = 32 ∨ (Rect.block (s := S32768x2) S128x2.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x304x9.size a ≤ S32768x304x9.size a
  hwx1_1 : ∀ i : grid1.Coords, EltTy.bits .bf16 = 32 ∨ (Rect.block (s := S32768x304x9) S128x304x9.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2x32.size a ≤ S2x32.size a
  hwx1_2 : ∀ i : grid1.Coords, EltTy.bits .f32 = 32 ∨ (Rect.block (s := S2x32) S2x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32.size a ≤ S32.size a
  hwx1_3 : ∀ i : grid1.Coords, EltTy.bits .f32 = 32 ∨ (Rect.block (s := S32) S32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x32.size a ≤ S32x32.size a
  hwx1_4 : ∀ i : grid1.Coords, EltTy.bits .f32 = 32 ∨ (Rect.block (s := S32x32) S32x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S32.size a ≤ S32.size a
  hwx1_5 : ∀ i : grid1.Coords, EltTy.bits .f32 = 32 ∨ (Rect.block (s := S32) S32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S32x4864.size a ≤ S32x4864.size a
  hwx1_6 : ∀ i : grid1.Coords, EltTy.bits .f32 = 32 ∨ (Rect.block (s := S32x4864) S32x4864.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S128x16x9.size a ≤ S32768x16x9.size a
  hwx1_7 : ∀ i : grid1.Coords, EltTy.bits .f32 = 32 ∨ (Rect.block (s := S32768x16x9) S128x16x9.size (cc1_transform_7 i) (hinb1_7 i)).WholeWords (EltTy.packing .f32)

variable [Facts₀]

def gather_S8192x16x1_S32768x1_S32768x16x1_12_0_n_n_0_1_1161 : GatherDims S8192x16x1 S32768x1 S32768x16x1 where
  offsetDims := [1, 2]
  collapsedSliceDims := [0]
  operandBatchingDims := []
  startIndicesBatchingDims := []
  startIndexMap := [0]
  indexVectorDim := 1
  sliceSizes := ![1, 16, 1]
  wf := gather_S8192x16x1_S32768x1_S32768x16x1_12_0_n_n_0_1_1161_wf
def gather_S8192x16x3_S32768x1_S32768x16x3_12_0_n_n_0_1_1163 : GatherDims S8192x16x3 S32768x1 S32768x16x3 where
  offsetDims := [1, 2]
  collapsedSliceDims := [0]
  operandBatchingDims := []
  startIndicesBatchingDims := []
  startIndexMap := [0]
  indexVectorDim := 1
  sliceSizes := ![1, 16, 3]
  wf := gather_S8192x16x3_S32768x1_S32768x16x3_12_0_n_n_0_1_1163_wf
def gather_S8192x16x5_S32768x1_S32768x16x5_12_0_n_n_0_1_1165 : GatherDims S8192x16x5 S32768x1 S32768x16x5 where
  offsetDims := [1, 2]
  collapsedSliceDims := [0]
  operandBatchingDims := []
  startIndicesBatchingDims := []
  startIndexMap := [0]
  indexVectorDim := 1
  sliceSizes := ![1, 16, 5]
  wf := gather_S8192x16x5_S32768x1_S32768x16x5_12_0_n_n_0_1_1165_wf
def dot_S256x16x9_S256x9x171_S256x16x171_2_1_1_2_0_0 : DotDims S256x16x9 S256x9x171 S256x16x171 where
  lhsContracting := [2]
  rhsContracting := [1]
  lhsNonContracting := [1]
  rhsNonContracting := [2]
  lhsBatch := [0]
  rhsBatch := [0]
  wf := dot_S256x16x9_S256x9x171_S256x16x171_2_1_1_2_0_0_wf
def dot_S128x2_S2x32_S128x32_1_0_0_1_n_n : DotDims S128x2 S2x32 S128x32 where
  lhsContracting := [1]
  rhsContracting := [0]
  lhsNonContracting := [0]
  rhsNonContracting := [1]
  lhsBatch := []
  rhsBatch := []
  wf := dot_S128x2_S2x32_S128x32_1_0_0_1_n_n_wf
def dot_S128x32_S32x32_S128x32_1_0_0_1_n_n : DotDims S128x32 S32x32 S128x32 where
  lhsContracting := [1]
  rhsContracting := [0]
  lhsNonContracting := [0]
  rhsNonContracting := [1]
  lhsBatch := []
  rhsBatch := []
  wf := dot_S128x32_S32x32_S128x32_1_0_0_1_n_n_wf
def dot_S128x32_S32x4864_S128x4864_1_0_0_1_n_n : DotDims S128x32 S32x4864 S128x4864 where
  lhsContracting := [1]
  rhsContracting := [0]
  lhsNonContracting := [0]
  rhsNonContracting := [1]
  lhsBatch := []
  rhsBatch := []
  wf := dot_S128x32_S32x4864_S128x4864_1_0_0_1_n_n_wf
def dot_S128x16x304_S128x304x9_S128x16x9_2_1_1_2_0_0 : DotDims S128x16x304 S128x304x9 S128x16x9 where
  lhsContracting := [2]
  rhsContracting := [1]
  lhsNonContracting := [1]
  rhsNonContracting := [2]
  lhsBatch := [0]
  rhsBatch := [0]
  wf := dot_S128x16x304_S128x304x9_S128x16x9_2_1_1_2_0_0_wf
def scatter_S8192x16x9_S32768x1_S32768x16x9_12_0_0_1 : ScatterDims S8192x16x9 S32768x1 S32768x16x9 where
  updateWindowDims := [1, 2]
  insertedWindowDims := [0]
  scatterDimsToOperandDims := [0]
  indexVectorDim := 1
  wf := scatter_S8192x16x9_S32768x1_S32768x16x9_12_0_0_1_wf

abbrev win0_0 : Pipeline.Window sig grid0 :=
  Pipeline.Window.ofSpec (Memref.whole main_v21) S256x16x9.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S256x9x171.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S256x16x171.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg3) S128x2.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S128x304x9.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S2x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S32x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S32x4864.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v25) S128x16x9.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S8192x16x1 : Shape := ⟨3, ![8192, 16, 1]⟩
abbrev S8192x16x3 : Shape := ⟨3, ![8192, 16, 3]⟩
abbrev S8192x16x5 : Shape := ⟨3, ![8192, 16, 5]⟩
abbrev S32768x2 : Shape := ⟨2, ![32768, 2]⟩
abbrev S32768x9x19x9 : Shape := ⟨4, ![32768, 9, 19, 9]⟩
abbrev S2x32 : Shape := ⟨2, ![2, 32]⟩
abbrev S32 : Shape := ⟨1, ![32]⟩
abbrev S32x32 : Shape := ⟨2, ![32, 32]⟩
abbrev S32x4864 : Shape := ⟨2, ![32, 4864]⟩
abbrev S32768 : Shape := ⟨1, ![32768]⟩
abbrev S_ : Shape := ⟨0, ![]⟩
abbrev S32768x1 : Shape := ⟨2, ![32768, 1]⟩
abbrev S32768x16x1 : Shape := ⟨3, ![32768, 16, 1]⟩
abbrev S32768x16x3 : Shape := ⟨3, ![32768, 16, 3]⟩
abbrev S32768x16x5 : Shape := ⟨3, ![32768, 16, 5]⟩
abbrev S32768x16x9 : Shape := ⟨3, ![32768, 16, 9]⟩
abbrev S32768x32 : Shape := ⟨2, ![32768, 32]⟩
abbrev S1x32 : Shape := ⟨2, ![1, 32]⟩
abbrev S32768x4864 : Shape := ⟨2, ![32768, 4864]⟩
abbrev S32768x16x304 : Shape := ⟨3, ![32768, 16, 304]⟩
abbrev S32768x9x171 : Shape := ⟨3, ![32768, 9, 171]⟩
abbrev S32768x16x171 : Shape := ⟨3, ![32768, 16, 171]⟩
abbrev S32768x304x9 : Shape := ⟨3, ![32768, 304, 9]⟩
abbrev S8192x16x9 : Shape := ⟨3, ![8192, 16, 9]⟩

abbrev nBuf : Space → Nat
  | .hbm => 67
  | .vmem => 0
  | .smem => 0
  | _ => 0

abbrev bufTy : (tb : Table) → Fin (tcTables nBuf tb) → BufTy
  | .hbm, ⟨0, _⟩ => ⟨S8192x16x1, .f32⟩
  | .hbm, ⟨1, _⟩ => ⟨S8192x16x3, .f32⟩
  | .hbm, ⟨2, _⟩ => ⟨S8192x16x5, .f32⟩
  | .hbm, ⟨3, _⟩ => ⟨S32768x2, .f32⟩
  | .hbm, ⟨4, _⟩ => ⟨S32768x9x19x9, .f32⟩
  | .hbm, ⟨5, _⟩ => ⟨S2x32, .f32⟩
  | .hbm, ⟨6, _⟩ => ⟨S32, .f32⟩
  | .hbm, ⟨7, _⟩ => ⟨S32x32, .f32⟩
  | .hbm, ⟨8, _⟩ => ⟨S32, .f32⟩
  | .hbm, ⟨9, _⟩ => ⟨S32x4864, .f32⟩
  | .hbm, ⟨10, _⟩ => ⟨S32768, .i32⟩
  | .hbm, ⟨11, _⟩ => ⟨S32768, .i32⟩
  | .hbm, ⟨12, _⟩ => ⟨S_, .i32⟩
  | .hbm, ⟨13, _⟩ => ⟨S32768, .i32⟩
  | .hbm, ⟨14, _⟩ => ⟨S32768, .i1⟩
  | .hbm, ⟨15, _⟩ => ⟨S_, .i32⟩
  | .hbm, ⟨16, _⟩ => ⟨S32768, .i32⟩
  | .hbm, ⟨17, _⟩ => ⟨S32768, .i32⟩
  | .hbm, ⟨18, _⟩ => ⟨S32768, .i32⟩
  | .hbm, ⟨19, _⟩ => ⟨S32768x1, .i32⟩
  | .hbm, ⟨20, _⟩ => ⟨S32768x16x1, .f32⟩
  | .hbm, ⟨21, _⟩ => ⟨S_, .i32⟩
  | .hbm, ⟨22, _⟩ => ⟨S32768, .i32⟩
  | .hbm, ⟨23, _⟩ => ⟨S32768, .i1⟩
  | .hbm, ⟨24, _⟩ => ⟨S_, .i32⟩
  | .hbm, ⟨25, _⟩ => ⟨S32768, .i32⟩
  | .hbm, ⟨26, _⟩ => ⟨S32768, .i32⟩
  | .hbm, ⟨27, _⟩ => ⟨S32768, .i32⟩
  | .hbm, ⟨28, _⟩ => ⟨S32768x1, .i32⟩
  | .hbm, ⟨29, _⟩ => ⟨S32768x16x3, .f32⟩
  | .hbm, ⟨30, _⟩ => ⟨S_, .i32⟩
  | .hbm, ⟨31, _⟩ => ⟨S32768, .i32⟩
  | .hbm, ⟨32, _⟩ => ⟨S32768, .i1⟩
  | .hbm, ⟨33, _⟩ => ⟨S_, .i32⟩
  | .hbm, ⟨34, _⟩ => ⟨S32768, .i32⟩
  | .hbm, ⟨35, _⟩ => ⟨S32768, .i32⟩
  | .hbm, ⟨36, _⟩ => ⟨S32768, .i32⟩
  | .hbm, ⟨37, _⟩ => ⟨S32768x1, .i32⟩
  | .hbm, ⟨38, _⟩ => ⟨S32768x16x5, .f32⟩
  | .hbm, ⟨39, _⟩ => ⟨S32768x16x9, .f32⟩
  | .hbm, ⟨40, _⟩ => ⟨S32768x32, .f32⟩
  | .hbm, ⟨41, _⟩ => ⟨S1x32, .f32⟩
  | .hbm, ⟨42, _⟩ => ⟨S32768x32, .f32⟩
  | .hbm, ⟨43, _⟩ => ⟨S32768x32, .f32⟩
  | .hbm, ⟨44, _⟩ => ⟨S_, .f32⟩
  | .hbm, ⟨45, _⟩ => ⟨S32768x32, .f32⟩
  | .hbm, ⟨46, _⟩ => ⟨S32768x32, .f32⟩
  | .hbm, ⟨47, _⟩ => ⟨S32768x32, .f32⟩
  | .hbm, ⟨48, _⟩ => ⟨S1x32, .f32⟩
  | .hbm, ⟨49, _⟩ => ⟨S32768x32, .f32⟩
  | .hbm, ⟨50, _⟩ => ⟨S32768x32, .f32⟩
  | .hbm, ⟨51, _⟩ => ⟨S_, .f32⟩
  | .hbm, ⟨52, _⟩ => ⟨S32768x32, .f32⟩
  | .hbm, ⟨53, _⟩ => ⟨S32768x32, .f32⟩
  | .hbm, ⟨54, _⟩ => ⟨S32768x4864, .f32⟩
  | .hbm, ⟨55, _⟩ => ⟨S32768x16x304, .f32⟩
  | .hbm, ⟨56, _⟩ => ⟨S32768x9x171, .f32⟩
  | .hbm, ⟨57, _⟩ => ⟨S32768x16x171, .f32⟩
  | .hbm, ⟨58, _⟩ => ⟨S32768x304x9, .f32⟩
  | .hbm, ⟨59, _⟩ => ⟨S32768x16x9, .f32⟩
  | .hbm, ⟨60, _⟩ => ⟨S_, .f32⟩
  | .hbm, ⟨61, _⟩ => ⟨S8192x16x9, .f32⟩
  | .hbm, ⟨62, _⟩ => ⟨S32768x1, .i32⟩
  | .hbm, ⟨63, _⟩ => ⟨S8192x16x9, .f32⟩
  | .hbm, ⟨64, _⟩ => ⟨S8192x16x1, .f32⟩
  | .hbm, ⟨65, _⟩ => ⟨S8192x16x3, .f32⟩
  | .hbm, ⟨66, _⟩ => ⟨S8192x16x5, .f32⟩
  | _, _ => ⟨S8192x16x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c_3 : Ref sig .tc := ⟨.hbm, 30, rfl⟩
abbrev main_v14 : Ref sig .tc := ⟨.hbm, 31, rfl⟩
abbrev main_v15 : Ref sig .tc := ⟨.hbm, 32, rfl⟩
abbrev main_c_4 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_call0_cst : Ref sig .tc := ⟨.hbm, 44, rfl⟩
abbrev main_call0_v0 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_call1_cst : Ref sig .tc := ⟨.hbm, 51, rfl⟩
abbrev main_call1_v0 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩

abbrev nD : Nat := 1
abbrev τ : Topo := Topo.v7x

variable {F : FTy → Type} [FloatOps F]

class Facts₀ : Prop where
  bcast_S_S32768 : S_.BroadcastsInDim S32768 (![] : Fin 0 → Fin S32768.rank)
  bcast_S32768_S32768x1_0 : S32768.BroadcastsInDim S32768x1 (![0] : Fin 1 → Fin S32768x1.rank)
  concatenates_S32768x16x1_S32768x16x3_S32768x16x5_S32768x16x9_d2 : Shape.Concatenates [S32768x16x1, S32768x16x3, S32768x16x5] S32768x16x9 2
  bcast_S32_S1x32_1 : S32.BroadcastsInDim S1x32 (![1] : Fin 1 → Fin S1x32.rank)
  bcast_S1x32_S32768x32_0_1 : S1x32.BroadcastsInDim S32768x32 (![0, 1] : Fin 2 → Fin S32768x32.rank)
  bcast_S_S32768x32 : S_.BroadcastsInDim S32768x32 (![] : Fin 0 → Fin S32768x32.rank)
  shapeCasts_S32768x4864_S32768x16x304 : S32768x4864.ShapeCasts S32768x16x304
  shapeCasts_S32768x9x19x9_S32768x9x171 : S32768x9x19x9.ShapeCasts S32768x9x171
  shapeCasts_S32768x16x171_S32768x304x9 : S32768x16x171.ShapeCasts S32768x304x9
  bcast_S_S8192x16x9 : S_.BroadcastsInDim S8192x16x9 (![] : Fin 0 → Fin S8192x16x9.rank)
  slices_S8192x16x9_S8192x16x1_0_0_0 : S8192x16x9.Slices ![0, 0, 0] S8192x16x1
  slices_S8192x16x9_S8192x16x3_0_0_1 : S8192x16x9.Slices ![0, 0, 1] S8192x16x3
  slices_S8192x16x9_S8192x16x5_0_0_4 : S8192x16x9.Slices ![0, 0, 4] S8192x16x5
  gather_S8192x16x1_S32768x1_S32768x16x1_12_0_n_n_0_1_1161_wf : GatherDims.WF S8192x16x1 S32768x1 S32768x16x1 [1, 2] [0] [] [0] [] 1 ![1, 16, 1]
  gather_S8192x16x3_S32768x1_S32768x16x3_12_0_n_n_0_1_1163_wf : GatherDims.WF S8192x16x3 S32768x1 S32768x16x3 [1, 2] [0] [] [0] [] 1 ![1, 16, 3]
  gather_S8192x16x5_S32768x1_S32768x16x5_12_0_n_n_0_1_1165_wf : GatherDims.WF S8192x16x5 S32768x1 S32768x16x5 [1, 2] [0] [] [0] [] 1 ![1, 16, 5]
  dot_S32768x2_S2x32_S32768x32_1_0_0_1_n_n_wf : DotDims.WF S32768x2 S2x32 S32768x32 [1] [0] [0] [1] [] []
  dot_S32768x32_S32x32_S32768x32_1_0_0_1_n_n_wf : DotDims.WF S32768x32 S32x32 S32768x32 [1] [0] [0] [1] [] []
  dot_S32768x32_S32x4864_S32768x4864_1_0_0_1_n_n_wf : DotDims.WF S32768x32 S32x4864 S32768x4864 [1] [0] [0] [1] [] []
  dot_S32768x16x9_S32768x9x171_S32768x16x171_2_1_1_2_0_0_wf : DotDims.WF S32768x16x9 S32768x9x171 S32768x16x171 [2] [1] [1] [2] [0] [0]
  dot_S32768x16x304_S32768x304x9_S32768x16x9_2_1_1_2_0_0_wf : DotDims.WF S32768x16x304 S32768x304x9 S32768x16x9 [2] [1] [1] [2] [0] [0]
  scatter_S8192x16x9_S32768x1_S32768x16x9_12_0_0_1_wf : ScatterDims.WF S8192x16x9 S32768x1 S32768x16x9 [1, 2] [0] [0] 1

variable [Facts₀]

def gather_S8192x16x1_S32768x1_S32768x16x1_12_0_n_n_0_1_1161 : GatherDims S8192x16x1 S32768x1 S32768x16x1 where
  offsetDims := [1, 2]
  collapsedSliceDims := [0]
  operandBatchingDims := []
  startIndicesBatchingDims := []
  startIndexMap := [0]
  indexVectorDim := 1
  sliceSizes := ![1, 16, 1]
  wf := gather_S8192x16x1_S32768x1_S32768x16x1_12_0_n_n_0_1_1161_wf
def gather_S8192x16x3_S32768x1_S32768x16x3_12_0_n_n_0_1_1163 : GatherDims S8192x16x3 S32768x1 S32768x16x3 where
  offsetDims := [1, 2]
  collapsedSliceDims := [0]
  operandBatchingDims := []
  startIndicesBatchingDims := []
  startIndexMap := [0]
  indexVectorDim := 1
  sliceSizes := ![1, 16, 3]
  wf := gather_S8192x16x3_S32768x1_S32768x16x3_12_0_n_n_0_1_1163_wf
def gather_S8192x16x5_S32768x1_S32768x16x5_12_0_n_n_0_1_1165 : GatherDims S8192x16x5 S32768x1 S32768x16x5 where
  offsetDims := [1, 2]
  collapsedSliceDims := [0]
  operandBatchingDims := []
  startIndicesBatchingDims := []
  startIndexMap := [0]
  indexVectorDim := 1
  sliceSizes := ![1, 16, 5]
  wf := gather_S8192x16x5_S32768x1_S32768x16x5_12_0_n_n_0_1_1165_wf
def dot_S32768x2_S2x32_S32768x32_1_0_0_1_n_n : DotDims S32768x2 S2x32 S32768x32 where
  lhsContracting := [1]
  rhsContracting := [0]
  lhsNonContracting := [0]
  rhsNonContracting := [1]
  lhsBatch := []
  rhsBatch := []
  wf := dot_S32768x2_S2x32_S32768x32_1_0_0_1_n_n_wf
def dot_S32768x32_S32x32_S32768x32_1_0_0_1_n_n : DotDims S32768x32 S32x32 S32768x32 where
  lhsContracting := [1]
  rhsContracting := [0]
  lhsNonContracting := [0]
  rhsNonContracting := [1]
  lhsBatch := []
  rhsBatch := []
  wf := dot_S32768x32_S32x32_S32768x32_1_0_0_1_n_n_wf
def dot_S32768x32_S32x4864_S32768x4864_1_0_0_1_n_n : DotDims S32768x32 S32x4864 S32768x4864 where
  lhsContracting := [1]
  rhsContracting := [0]
  lhsNonContracting := [0]
  rhsNonContracting := [1]
  lhsBatch := []
  rhsBatch := []
  wf := dot_S32768x32_S32x4864_S32768x4864_1_0_0_1_n_n_wf
def dot_S32768x16x9_S32768x9x171_S32768x16x171_2_1_1_2_0_0 : DotDims S32768x16x9 S32768x9x171 S32768x16x171 where
  lhsContracting := [2]
  rhsContracting := [1]
  lhsNonContracting := [1]
  rhsNonContracting := [2]
  lhsBatch := [0]
  rhsBatch := [0]
  wf := dot_S32768x16x9_S32768x9x171_S32768x16x171_2_1_1_2_0_0_wf
def dot_S32768x16x304_S32768x304x9_S32768x16x9_2_1_1_2_0_0 : DotDims S32768x16x304 S32768x304x9 S32768x16x9 where
  lhsContracting := [2]
  rhsContracting := [1]
  lhsNonContracting := [1]
  rhsNonContracting := [2]
  lhsBatch := [0]
  rhsBatch := [0]
  wf := dot_S32768x16x304_S32768x304x9_S32768x16x9_2_1_1_2_0_0_wf
def scatter_S8192x16x9_S32768x1_S32768x16x9_12_0_0_1 : ScatterDims S8192x16x9 S32768x1 S32768x16x9 where
  updateWindowDims := [1, 2]
  insertedWindowDims := [0]
  scatterDimsToOperandDims := [0]
  indexVectorDim := 1
  wf := scatter_S8192x16x9_S32768x1_S32768x16x9_12_0_0_1_wf

class Facts : Prop extends Facts₀ where

variable [Facts]
-- ==== Proof.KernelData.lean ====
/-
  The proof data of `Kernel`'s two pipelined regions, and the contents of the TensorCore's buffers at every boundary
  between a stretch of host operations and a region.

  Region 0 contracts, for a block of 256 edges, the gathered features [256,16,9] with the basis [256,9,171]; region 1, for a
  block of 128 edges, runs the radial perceptron and multiplies its weights [128,16,304] with the reshaped contraction
  [128,304,9].  Each body loads its whole input blocks, computes one value and stores it over its whole output block,
  so what a point leaves in its output buffer is one function (`out0_2`, `out1_7`) of the input blocks at that point,
  and an input buffer is left as found.  Between the regions the buffers' contents are a fold from the launch memory:
  a host stretch applies its operations, a region replaces its windows' arrays by what its write-backs leave.
-/
import proofs.«120871_j74406013435996_2_alg».proof.Proof.Gen.Kernel.Launch
import proofs.«120871_j74406013435996_2_alg».proof.Proof.Gen.Kernel.Skeleton
import proofs.«120871_j74406013435996_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the buffers' contents when a region is entered: the parameter each region's half is stated at
variable (V : (c : Dev nD) → (b : Ref sig .tc) → Buf (Elt F) ((c : Thread nD τ).loc b))

/-! ## Region 0: the basis contraction -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S256x16x9 := Rect.unit (s := S256x16x9) ![0, 0, 0] S256x16x9.size inb_S256x16x9_S256x16x9_0_0_0
abbrev r0_1 : Rect S256x9x171 := Rect.unit (s := S256x9x171) ![0, 0, 0] S256x9x171.size inb_S256x9x171_S256x9x171_0_0_0
abbrev r0_2 : Rect S256x16x171 := Rect.unit (s := S256x16x171) ![0, 0, 0] S256x16x171.size inb_S256x16x171_S256x16x171_0_0_0

/-- The output buffer after the body: its one store, of the body's value of the two loaded blocks. -/
def out0_2 (x0 : Vec F S256x16x9 .f32) (x1 : Vec F S256x9x171 .f32) : Vec F S256x16x171 .bf16 :=
  View.canon [⟨r0_2, k0_pay1 (View.ld x0 r0_0) (View.ld x1 r0_1)⟩]

/-- Region 0's proof data on core `c`: the arrays as found; after the body each input buffer at its block and the output
    buffer at `out0_2` of the input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-! ## Region 1: the radial perceptron and the final product -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S128x2 := Rect.unit (s := S128x2) ![0, 0] S128x2.size inb_S128x2_S128x2_0_0
abbrev r1_1 : Rect S128x304x9 := Rect.unit (s := S128x304x9) ![0, 0, 0] S128x304x9.size inb_S128x304x9_S128x304x9_0_0_0
abbrev r1_2 : Rect S2x32 := Rect.unit (s := S2x32) ![0, 0] S2x32.size inb_S2x32_S2x32_0_0
abbrev r1_3 : Rect S32 := Rect.unit (s := S32) ![0] S32.size inb_S32_S32_0
abbrev r1_4 : Rect S32x32 := Rect.unit (s := S32x32) ![0, 0] S32x32.size inb_S32x32_S32x32_0_0
abbrev r1_6 : Rect S32x4864 := Rect.unit (s := S32x4864) ![0, 0] S32x4864.size inb_S32x4864_S32x4864_0_0
abbrev r1_7 : Rect S128x16x9 := Rect.unit (s := S128x16x9) ![0, 0, 0] S128x16x9.size inb_S128x16x9_S128x16x9_0_0_0

/-- The output buffer after the body: its one store, of the body's value of the seven loaded blocks. -/
def out1_7 (x0 : Vec F S128x2 .f32) (x1 : Vec F S128x304x9 .bf16) (x2 : Vec F S2x32 .f32) (x3 : Vec F S32 .f32)
    (x4 : Vec F S32x32 .f32) (x5 : Vec F S32 .f32) (x6 : Vec F S32x4864 .f32) : Vec F S128x16x9 .f32 :=
  View.canon [⟨r1_7, k1_pay1 (View.ld x0 r1_0) (View.ld x1 r1_1) (View.ld x2 r1_2) (View.ld x3 r1_3) (View.ld x4 r1_4) (View.ld x5 r1_3) (View.ld x6 r1_6)⟩]

/-- Region 1's proof data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t =
    out1_7 (iblk1 V c 0 t) (iblk1 V c 1 t) (iblk1 V c 2 t) (iblk1 V c 3 t) (iblk1 V c 4 t) (iblk1 V c 5 t) (iblk1 V c 6 t) := by dsimp only [dat1]

end Regions

/-! ## The buffers' contents at each boundary: a fold through @main -/

variable (m : (ℓ : Loc nD τ sig) → Buf (Elt F) ℓ)

/-- Core `c`'s buffers at launch. -/
abbrev W0 : Dev nD → Valuation τ sig (Elt F) := fun c b => m (c, b)
/-- After the first host stretch (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the reshape between the regions (region 1's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At region 1's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)
/-- After the last host stretch (the scatter-add and the three slices): the contents at the return. -/
abbrev W5 : Dev nD → Valuation τ sig (Elt F) := fun c => StableHlo.after hostOps2 (W4 m c)

/-! ## The proof data family -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c

end Cert.Kernel.Fr

end
-- ==== Proof.KernelBody0.lean ====
/-
  Region 0 of `Kernel` (the basis contraction): the body's triple and the pipeline's body obligation.

  The body loads its two input blocks whole, loads the output block (unused), and stores one value over the whole
  output block.  Run from staging buffers holding the input blocks, it ends with the inputs as found and the output
  buffer at `out0_2` of them: the one store covers the block.  An input buffer holds its window's block whenever
  the body is entered, fetched at that point or not.
-/
import proofs.«120871_j74406013435996_2_alg».proof.Proof.KernelData

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-- An input window's current staging buffer holds its block at every point, for any proof data whose array is `V`'s and
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The one store tiles the output buffer, so it covers it. -/
theorem cover0_2 (p0 : Vec F S256x16x171 .bf16) (y : S256x16x171.Idx) :
    ∃ pc ∈ ([⟨r0_2, p0⟩] : List (View.Piece (Elt F) S256x16x171 .bf16)), y ∈ pc.1.set :=
  View.cover_of_tiled [⟨r0_2, p0⟩] S256x16x171.size (by rfl) y

set_option maxHeartbeats 1000000 in
/-- The body on whole staging memrefs, the inputs' at contents `x0`, `x1` and the output's at anything, runs to the
    continuation holding the inputs' as they were and the output's at `out0_2 x0 x1`. -/
theorem sound_kernel0 (c : Dev nD) (E : Set ℕ) (i : grid0.Coords) (arg1 : Memref sig .tc .vmem S256x16x9 .f32) (harg1 : arg1.IsWhole)
    (arg2 : Memref sig .tc .vmem S256x9x171 .f32) (harg2 : arg2.IsWhole) (arg3 : Memref sig .tc .vmem S256x16x171 .bf16) (harg3 : arg3.IsWhole)
    (x0 : Vec F S256x16x9 .f32) (x1 : Vec F S256x9x171 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__basis_kernel i arg1 harg1 arg2 harg2 arg3 harg3) K := by
  simp only [cc0__basis_kernel_eq_skeleton]; unfold cc0__basis_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover0_2 _)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.Kernel.Fr

end
-- ==== Proof.KernelBody1.lean ====
/-
  Region 1 of `Kernel` (the radial perceptron and the final product): the body's triple and the pipeline's body
  obligation.

  The body loads its seven input blocks whole — the edge features and the reshaped contraction of 128 edges, and the
  five weight arrays, which are the same block at every point —, loads the output block (unused), and stores one value
  over the whole output block.  Run from staging buffers holding the input blocks, it ends with the inputs as found
  and the output buffer at `out1_7` of them.  An input buffer holds its window's block whenever the body is entered,
  fetched at that point or not: a weight array is fetched once, and its block never moves.
-/
import proofs.«120871_j74406013435996_2_alg».proof.Proof.KernelData

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- The one store tiles the output buffer, so it covers it. -/
theorem cover1_7 (p0 : Vec F S128x16x9 .f32) (y : S128x16x9.Idx) :
    ∃ pc ∈ ([⟨r1_7, p0⟩] : List (View.Piece (Elt F) S128x16x9 .f32)), y ∈ pc.1.set :=
  View.cover_of_tiled [⟨r1_7, p0⟩] S128x16x9.size (by rfl) y

set_option maxHeartbeats 2000000 in
/-- The body on whole staging memrefs, the inputs' at contents `x0 … x6` and the output's at anything, runs to the
    continuation holding the inputs' as they were and the output's at `out1_7` of them. -/
theorem sound_kernel1 (c : Dev nD) (E : Set ℕ) (i : grid1.Coords)
    (arg1 : Memref sig .tc .vmem S128x2 .f32) (harg1 : arg1.IsWhole) (arg2 : Memref sig .tc .vmem S128x304x9 .bf16) (harg2 : arg2.IsWhole) (arg3 : Memref sig .tc .vmem S2x32 .f32) (harg3 : arg3.IsWhole) (arg4 : Memref sig .tc .vmem S32 .f32) (harg4 : arg4.IsWhole) (arg5 : Memref sig .tc .vmem S32x32 .f32) (harg5 : arg5.IsWhole) (arg6 : Memref sig .tc .vmem S32 .f32) (harg6 : arg6.IsWhole) (arg7 : Memref sig .tc .vmem S32x4864 .f32) (harg7 : arg7.IsWhole) (arg8 : Memref sig .tc .vmem S128x16x9 .f32) (harg8 : arg8.IsWhole)
    (x0 : Vec F S128x2 .f32) (x1 : Vec F S128x304x9 .bf16) (x2 : Vec F S2x32 .f32) (x3 : Vec F S32 .f32) (x4 : Vec F S32x32 .f32) (x5 : Vec F S32 .f32) (x6 : Vec F S32x4864 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out1_7 x0 x1 x2 x3 x4 x5 x6)) -∗ K ⟨⟩))
      ⊢ wp frame (wpE (defs₀ (F := F)) Variants.none c none) E (cc1__final_kernel i arg1 harg1 arg2 harg2 arg3 harg3 arg4 harg4 arg5 harg5 arg6 harg6 arg7 harg7 arg8 harg8) K := by
  simp only [cc1__final_kernel_eq_skeleton]; unfold cc1__final_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover1_7 _)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.Kernel.Fr

end
-- ==== Proof.KernelRun.lean ====
/-
  The run of `Kernel`'s @main: five segments — a stretch of host operations, the basis-contraction region, the reshape
  between the regions, the final-product region, and the stretch that pools the edges and cuts the three results —
  chained through the thread state "every unscoped buffer at the boundary's contents, the generator register at some
  state, nothing owed".  Every weakly fair execution terminates without a fault, and every unscoped buffer ends at
  the last boundary's contents `W5`: the argument arrays, which no segment writes, as launched.
-/
import proofs.«120871_j74406013435996_2_alg».proof.Proof.KernelBody0
import proofs.«120871_j74406013435996_2_alg».proof.Proof.KernelBody1

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arguments end as launched -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m c (Proc.devRef .tc main_arg0) := W4_of_ne m c main_arg0 (by decide)
    _ = W2 m c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m c (Proc.devRef .tc main_arg0) := W2_of_ne m c main_arg0 (by decide)
    _ = W0 m c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg0) := rfl
theorem W5_main_arg1 (c : Dev nD) : W5 m c (Proc.devRef .tc main_arg1) = m ((c : Thread nD τ).loc main_arg1) :=
  calc W5 m c (Proc.devRef .tc main_arg1)
    _ = W4 m c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m c (Proc.devRef .tc main_arg1) := W4_of_ne m c main_arg1 (by decide)
    _ = W2 m c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m c (Proc.devRef .tc main_arg1) := W2_of_ne m c main_arg1 (by decide)
    _ = W0 m c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg1) := rfl
theorem W5_main_arg2 (c : Dev nD) : W5 m c (Proc.devRef .tc main_arg2) = m ((c : Thread nD τ).loc main_arg2) :=
  calc W5 m c (Proc.devRef .tc main_arg2)
    _ = W4 m c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m c (Proc.devRef .tc main_arg2) := W4_of_ne m c main_arg2 (by decide)
    _ = W2 m c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m c (Proc.devRef .tc main_arg2) := W2_of_ne m c main_arg2 (by decide)
    _ = W0 m c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg2) := rfl
theorem W5_main_arg3 (c : Dev nD) : W5 m c (Proc.devRef .tc main_arg3) = m ((c : Thread nD τ).loc main_arg3) :=
  calc W5 m c (Proc.devRef .tc main_arg3)
    _ = W4 m c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m c (Proc.devRef .tc main_arg3) := (W4_arr m c 0).trans (((dat1 (V3 m) c).arrAt_in 0 rfl _).trans (A_eq1 (V3 m) c 0))
    _ = W2 m c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m c (Proc.devRef .tc main_arg3) := W2_of_ne m c main_arg3 (by decide)
    _ = W0 m c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg3) := rfl
theorem W5_main_arg4 (c : Dev nD) : W5 m c (Proc.devRef .tc main_arg4) = m ((c : Thread nD τ).loc main_arg4) :=
  calc W5 m c (Proc.devRef .tc main_arg4)
    _ = W4 m c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m c (Proc.devRef .tc main_arg4) := W4_of_ne m c main_arg4 (by decide)
    _ = W2 m c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m c (Proc.devRef .tc main_arg4) := W2_of_ne m c main_arg4 (by decide)
    _ = W0 m c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg4) := rfl
theorem W5_main_arg5 (c : Dev nD) : W5 m c (Proc.devRef .tc main_arg5) = m ((c : Thread nD τ).loc main_arg5) :=
  calc W5 m c (Proc.devRef .tc main_arg5)
    _ = W4 m c (Proc.devRef .tc main_arg5) := StableHlo.after_of_forall_not_mem (b := Proc.devRef .tc main_arg5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m c (Proc.devRef .tc main_arg5) := (W4_arr m c 2).trans (((dat1 (V3 m) c).arrAt_in 2 rfl _).trans (A_eq1 (V3 m) c 2))
    _ = W2 m c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m c (Proc.devRef .tc main_arg5) := W2_of_ne m c main_arg5 (by decide)
    _ = W0 m c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg5) := rfl
theorem W5_main_arg6 (c : Dev nD) : W5 m c (Proc.devRef .tc main_arg6) = m ((c : Thread nD τ).loc main_arg6) :=
  calc W5 m c (Proc.devRef .tc main_arg6)
    _ = W4 m c (Proc.devRef .tc main_arg6) := StableHlo.after_of_forall_not_mem (b := Proc.devRef .tc main_arg6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m c (Proc.devRef .tc main_arg6) := (W4_arr m c 3).trans (((dat1 (V3 m) c).arrAt_in 3 rfl _).trans (A_eq1 (V3 m) c 3))
    _ = W2 m c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m c (Proc.devRef .tc main_arg6) := W2_of_ne m c main_arg6 (by decide)
    _ = W0 m c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg6) := rfl
theorem W5_main_arg7 (c : Dev nD) : W5 m c (Proc.devRef .tc main_arg7) = m ((c : Thread nD τ).loc main_arg7) :=
  calc W5 m c (Proc.devRef .tc main_arg7)
    _ = W4 m c (Proc.devRef .tc main_arg7) := StableHlo.after_of_forall_not_mem (b := Proc.devRef .tc main_arg7) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m c (Proc.devRef .tc main_arg7) := (W4_arr m c 4).trans (((dat1 (V3 m) c).arrAt_in 4 rfl _).trans (A_eq1 (V3 m) c 4))
    _ = W2 m c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m c (Proc.devRef .tc main_arg7) := W2_of_ne m c main_arg7 (by decide)
    _ = W0 m c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg7) := rfl
theorem W5_main_arg8 (c : Dev nD) : W5 m c (Proc.devRef .tc main_arg8) = m ((c : Thread nD τ).loc main_arg8) :=
  calc W5 m c (Proc.devRef .tc main_arg8)
    _ = W4 m c (Proc.devRef .tc main_arg8) := StableHlo.after_of_forall_not_mem (b := Proc.devRef .tc main_arg8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m c (Proc.devRef .tc main_arg8) := (W4_arr m c 5).trans (((dat1 (V3 m) c).arrAt_in 5 rfl _).trans (A_eq1 (V3 m) c 5))
    _ = W2 m c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m c (Proc.devRef .tc main_arg8) := W2_of_ne m c main_arg8 (by decide)
    _ = W0 m c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg8) := rfl
theorem W5_main_arg9 (c : Dev nD) : W5 m c (Proc.devRef .tc main_arg9) = m ((c : Thread nD τ).loc main_arg9) :=
  calc W5 m c (Proc.devRef .tc main_arg9)
    _ = W4 m c (Proc.devRef .tc main_arg9) := StableHlo.after_of_forall_not_mem (b := Proc.devRef .tc main_arg9) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m c (Proc.devRef .tc main_arg9) := (W4_arr m c 6).trans (((dat1 (V3 m) c).arrAt_in 6 rfl _).trans (A_eq1 (V3 m) c 6))
    _ = W2 m c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m c (Proc.devRef .tc main_arg9) := W2_of_ne m c main_arg9 (by decide)
    _ = W0 m c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg9) := rfl
theorem W5_main_arg10 (c : Dev nD) : W5 m c (Proc.devRef .tc main_arg10) = m ((c : Thread nD τ).loc main_arg10) :=
  calc W5 m c (Proc.devRef .tc main_arg10)
    _ = W4 m c (Proc.devRef .tc main_arg10) := StableHlo.after_of_forall_not_mem (b := Proc.devRef .tc main_arg10) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m c (Proc.devRef .tc main_arg10) := W4_of_ne m c main_arg10 (by decide)
    _ = W2 m c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m c (Proc.devRef .tc main_arg10) := W2_of_ne m c main_arg10 (by decide)
    _ = W0 m c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg10) := rfl
theorem W5_main_arg11 (c : Dev nD) : W5 m c (Proc.devRef .tc main_arg11) = m ((c : Thread nD τ).loc main_arg11) :=
  calc W5 m c (Proc.devRef .tc main_arg11)
    _ = W4 m c (Proc.devRef .tc main_arg11) := StableHlo.after_of_forall_not_mem (b := Proc.devRef .tc main_arg11) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m c (Proc.devRef .tc main_arg11) := W4_of_ne m c main_arg11 (by decide)
    _ = W2 m c (Proc.devRef .tc main_arg11) := StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m c (Proc.devRef .tc main_arg11) := W2_of_ne m c main_arg11 (by decide)
    _ = W0 m c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg11) := rfl

/-! ## The thread state -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at `W5`, the generator register at some state. -/
abbrev Tₙ (c : Dev nD) : sProp 𝕄 := iprop(StableHlo.held (c : Thread nD τ) (Pipeline.ucRefs τ sig) (W5 m c) ∗ ∃ r, prngReg c r)

/-- The last host stretch's exit state is the last thread state beside the core owing nothing. -/
theorem last_step (c : Dev nD) :
    (iprop(StableHlo.held (c : Thread nD τ) (Pipeline.ucRefs τ sig) (W5 m c) ∗ R c) : sProp 𝕄)
      ⊢ iprop(Tₙ m c ∗ ∃ W, owes (c : Thread nD τ) (0 : CellTallies nD τ sig Unit) W) := by
  iintro ⟨Hh, Hp, HO⟩
  isplitl [Hh Hp]
  · isplitl [Hh]; · iexact Hh
    iexact Hp
  iexact HO

/-! ## The regions as segments -/

set_option backward.isDefEq.respectTransparency.types false in
/-- Region 0 over the thread state: entered from every unscoped buffer at `W1`, left at `W2`.  Its arrays are split
    out of the unscoped buffers and put back at the exit contents; the generator register passes into the class invariant
    and out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`.  Its arrays are split
    out of the unscoped buffers and put back at the exit contents; the generator register passes into the class invariant
    and out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and in
    every final state every unscoped buffer of every core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => last_step m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- THE FRAME: every weakly fair execution of @main terminates, nothing faulting, and the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)
      ∧       r.2.mem ((c.tc : Thread nD τ).loc main_arg11) = m ((c.tc : Thread nD τ).loc main_arg11)) :=
  (θ_run defs _ _).mono (fun r h c => ⟨(h c _ (mem_uc main_arg0 (by decide))).trans (W5_main_arg0 m c),
    (h c _ (mem_uc main_arg1 (by decide))).trans (W5_main_arg1 m c),
    (h c _ (mem_uc main_arg2 (by decide))).trans (W5_main_arg2 m c),
    (h c _ (mem_uc main_arg3 (by decide))).trans (W5_main_arg3 m c),
    (h c _ (mem_uc main_arg4 (by decide))).trans (W5_main_arg4 m c),
    (h c _ (mem_uc main_arg5 (by decide))).trans (W5_main_arg5 m c),
    (h c _ (mem_uc main_arg6 (by decide))).trans (W5_main_arg6 m c),
    (h c _ (mem_uc main_arg7 (by decide))).trans (W5_main_arg7 m c),
    (h c _ (mem_uc main_arg8 (by decide))).trans (W5_main_arg8 m c),
    (h c _ (mem_uc main_arg9 (by decide))).trans (W5_main_arg9 m c),
    (h c _ (mem_uc main_arg10 (by decide))).trans (W5_main_arg10 m c),
    (h c _ (mem_uc main_arg11 (by decide))).trans (W5_main_arg11 m c)⟩) (run_all m ρ)

end Cert.Kernel.Fr

end
-- ==== Proof.KernelIdealData.lean ====
/-
  The proof data of `KernelIdeal`'s two pipelined regions, and the contents of the TensorCore's buffers at every boundary
  between a stretch of host operations and a region.

  Region 0 contracts, for a block of 256 edges, the gathered features [256,16,9] with the basis [256,9,171]; region 1, for a
  block of 128 edges, runs the radial perceptron and multiplies its weights [128,16,304] with the reshaped contraction
  [128,304,9].  Each body loads its whole input blocks, computes one value and stores it over its whole output block,
  so what a point leaves in its output buffer is one function (`out0_2`, `out1_7`) of the input blocks at that point,
  and an input buffer is left as found.  Between the regions the buffers' contents are a fold from the launch memory:
  a host stretch applies its operations, a region replaces its windows' arrays by what its write-backs leave.
-/
import proofs.«120871_j74406013435996_2_alg».proof.Proof.Gen.KernelIdeal.Launch
import proofs.«120871_j74406013435996_2_alg».proof.Proof.Gen.KernelIdeal.Skeleton
import proofs.«120871_j74406013435996_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the buffers' contents when a region is entered: the parameter each region's half is stated at
variable (V : (c : Dev nD) → (b : Ref sig .tc) → Buf (Elt F) ((c : Thread nD τ).loc b))

/-! ## Region 0: the basis contraction -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S256x16x9 := Rect.unit (s := S256x16x9) ![0, 0, 0] S256x16x9.size inb_S256x16x9_S256x16x9_0_0_0
abbrev r0_1 : Rect S256x9x171 := Rect.unit (s := S256x9x171) ![0, 0, 0] S256x9x171.size inb_S256x9x171_S256x9x171_0_0_0
abbrev r0_2 : Rect S256x16x171 := Rect.unit (s := S256x16x171) ![0, 0, 0] S256x16x171.size inb_S256x16x171_S256x16x171_0_0_0

/-- The output buffer after the body: its one store, of the body's value of the two loaded blocks. -/
def out0_2 (x0 : Vec F S256x16x9 .f32) (x1 : Vec F S256x9x171 .f32) : Vec F S256x16x171 .bf16 :=
  View.canon [⟨r0_2, k0_pay1 (View.ld x0 r0_0) (View.ld x1 r0_1)⟩]

/-- Region 0's proof data on core `c`: the arrays as found; after the body each input buffer at its block and the output
    buffer at `out0_2` of the input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-! ## Region 1: the radial perceptron and the final product -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S128x2 := Rect.unit (s := S128x2) ![0, 0] S128x2.size inb_S128x2_S128x2_0_0
abbrev r1_1 : Rect S128x304x9 := Rect.unit (s := S128x304x9) ![0, 0, 0] S128x304x9.size inb_S128x304x9_S128x304x9_0_0_0
abbrev r1_2 : Rect S2x32 := Rect.unit (s := S2x32) ![0, 0] S2x32.size inb_S2x32_S2x32_0_0
abbrev r1_3 : Rect S32 := Rect.unit (s := S32) ![0] S32.size inb_S32_S32_0
abbrev r1_4 : Rect S32x32 := Rect.unit (s := S32x32) ![0, 0] S32x32.size inb_S32x32_S32x32_0_0
abbrev r1_6 : Rect S32x4864 := Rect.unit (s := S32x4864) ![0, 0] S32x4864.size inb_S32x4864_S32x4864_0_0
abbrev r1_7 : Rect S128x16x9 := Rect.unit (s := S128x16x9) ![0, 0, 0] S128x16x9.size inb_S128x16x9_S128x16x9_0_0_0

/-- The output buffer after the body: its one store, of the body's value of the seven loaded blocks. -/
def out1_7 (x0 : Vec F S128x2 .f32) (x1 : Vec F S128x304x9 .bf16) (x2 : Vec F S2x32 .f32) (x3 : Vec F S32 .f32)
    (x4 : Vec F S32x32 .f32) (x5 : Vec F S32 .f32) (x6 : Vec F S32x4864 .f32) : Vec F S128x16x9 .f32 :=
  View.canon [⟨r1_7, k1_pay1 (View.ld x0 r1_0) (View.ld x1 r1_1) (View.ld x2 r1_2) (View.ld x3 r1_3) (View.ld x4 r1_4) (View.ld x5 r1_3) (View.ld x6 r1_6)⟩]

/-- Region 1's proof data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t =
    out1_7 (iblk1 V c 0 t) (iblk1 V c 1 t) (iblk1 V c 2 t) (iblk1 V c 3 t) (iblk1 V c 4 t) (iblk1 V c 5 t) (iblk1 V c 6 t) := by dsimp only [dat1]

end Regions

/-! ## The buffers' contents at each boundary: a fold through @main -/

variable (m : (ℓ : Loc nD τ sig) → Buf (Elt F) ℓ)

/-- Core `c`'s buffers at launch. -/
abbrev W0 : Dev nD → Valuation τ sig (Elt F) := fun c b => m (c, b)
/-- After the first host stretch (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the reshape between the regions (region 1's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At region 1's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)
/-- After the last host stretch (the scatter-add and the three slices): the contents at the return. -/
abbrev W5 : Dev nD → Valuation τ sig (Elt F) := fun c => StableHlo.after hostOps2 (W4 m c)

/-! ## The proof data family -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c

end Cert.KernelIdeal.Fr

end
-- ==== Proof.KernelIdealBody0.lean ====
/-
  Region 0 of `KernelIdeal` (the basis contraction): the body's triple and the pipeline's body obligation.

  The body loads its two input blocks whole, loads the output block (unused), and stores one value over the whole
  output block.  Run from staging buffers holding the input blocks, it ends with the inputs as found and the output
  buffer at `out0_2` of them: the one store covers the block.  An input buffer holds its window's block whenever
  the body is entered, fetched at that point or not.
-/
import proofs.«120871_j74406013435996_2_alg».proof.Proof.KernelIdealData

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-- An input window's current staging buffer holds its block at every point, for any proof data whose array is `V`'s and
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The one store tiles the output buffer, so it covers it. -/
theorem cover0_2 (p0 : Vec F S256x16x171 .bf16) (y : S256x16x171.Idx) :
    ∃ pc ∈ ([⟨r0_2, p0⟩] : List (View.Piece (Elt F) S256x16x171 .bf16)), y ∈ pc.1.set :=
  View.cover_of_tiled [⟨r0_2, p0⟩] S256x16x171.size (by rfl) y

set_option maxHeartbeats 1000000 in
/-- The body on whole staging memrefs, the inputs' at contents `x0`, `x1` and the output's at anything, runs to the
    continuation holding the inputs' as they were and the output's at `out0_2 x0 x1`. -/
theorem sound_kernel0 (c : Dev nD) (E : Set ℕ) (i : grid0.Coords) (arg1 : Memref sig .tc .vmem S256x16x9 .f32) (harg1 : arg1.IsWhole)
    (arg2 : Memref sig .tc .vmem S256x9x171 .f32) (harg2 : arg2.IsWhole) (arg3 : Memref sig .tc .vmem S256x16x171 .bf16) (harg3 : arg3.IsWhole)
    (x0 : Vec F S256x16x9 .f32) (x1 : Vec F S256x9x171 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__basis_kernel i arg1 harg1 arg2 harg2 arg3 harg3) K := by
  simp only [cc0__basis_kernel_eq_skeleton]; unfold cc0__basis_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover0_2 _)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.KernelIdeal.Fr

end
-- ==== Proof.KernelIdealBody1.lean ====
/-
  Region 1 of `KernelIdeal` (the radial perceptron and the final product): the body's triple and the pipeline's body
  obligation.

  The body loads its seven input blocks whole — the edge features and the reshaped contraction of 128 edges, and the
  five weight arrays, which are the same block at every point —, loads the output block (unused), and stores one value
  over the whole output block.  Run from staging buffers holding the input blocks, it ends with the inputs as found
  and the output buffer at `out1_7` of them.  An input buffer holds its window's block whenever the body is entered,
  fetched at that point or not: a weight array is fetched once, and its block never moves.
-/
import proofs.«120871_j74406013435996_2_alg».proof.Proof.KernelIdealData

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- The one store tiles the output buffer, so it covers it. -/
theorem cover1_7 (p0 : Vec F S128x16x9 .f32) (y : S128x16x9.Idx) :
    ∃ pc ∈ ([⟨r1_7, p0⟩] : List (View.Piece (Elt F) S128x16x9 .f32)), y ∈ pc.1.set :=
  View.cover_of_tiled [⟨r1_7, p0⟩] S128x16x9.size (by rfl) y

set_option maxHeartbeats 2000000 in
/-- The body on whole staging memrefs, the inputs' at contents `x0 … x6` and the output's at anything, runs to the
    continuation holding the inputs' as they were and the output's at `out1_7` of them. -/
theorem sound_kernel1 (c : Dev nD) (E : Set ℕ) (i : grid1.Coords)
    (arg1 : Memref sig .tc .vmem S128x2 .f32) (harg1 : arg1.IsWhole) (arg2 : Memref sig .tc .vmem S128x304x9 .bf16) (harg2 : arg2.IsWhole) (arg3 : Memref sig .tc .vmem S2x32 .f32) (harg3 : arg3.IsWhole) (arg4 : Memref sig .tc .vmem S32 .f32) (harg4 : arg4.IsWhole) (arg5 : Memref sig .tc .vmem S32x32 .f32) (harg5 : arg5.IsWhole) (arg6 : Memref sig .tc .vmem S32 .f32) (harg6 : arg6.IsWhole) (arg7 : Memref sig .tc .vmem S32x4864 .f32) (harg7 : arg7.IsWhole) (arg8 : Memref sig .tc .vmem S128x16x9 .f32) (harg8 : arg8.IsWhole)
    (x0 : Vec F S128x2 .f32) (x1 : Vec F S128x304x9 .bf16) (x2 : Vec F S2x32 .f32) (x3 : Vec F S32 .f32) (x4 : Vec F S32x32 .f32) (x5 : Vec F S32 .f32) (x6 : Vec F S32x4864 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out1_7 x0 x1 x2 x3 x4 x5 x6)) -∗ K ⟨⟩))
      ⊢ wp frame (wpE (defs₀ (F := F)) Variants.none c none) E (cc1__final_kernel i arg1 harg1 arg2 harg2 arg3 harg3 arg4 harg4 arg5 harg5 arg6 harg6 arg7 harg7 arg8 harg8) K := by
  simp only [cc1__final_kernel_eq_skeleton]; unfold cc1__final_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover1_7 _)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.Fr

end
-- ==== Proof.KernelIdealRun.lean ====
/-
  The run of `KernelIdeal`'s @main: five segments — a stretch of host operations, the basis-contraction region, the reshape
  between the regions, the final-product region, and the stretch that pools the edges and cuts the three results —
  chained through the thread state "every unscoped buffer at the boundary's contents, the generator register at some
  state, nothing owed".  Every weakly fair execution terminates without a fault, and every unscoped buffer ends at
  the last boundary's contents `W5`: the argument arrays, which no segment writes, as launched.
-/
import proofs.«120871_j74406013435996_2_alg».proof.Proof.KernelIdealBody0
import proofs.«120871_j74406013435996_2_alg».proof.Proof.KernelIdealBody1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arguments end as launched -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m c (Proc.devRef .tc main_arg0) := W4_of_ne m c main_arg0 (by decide)
    _ = W2 m c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m c (Proc.devRef .tc main_arg0) := W2_of_ne m c main_arg0 (by decide)
    _ = W0 m c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg0) := rfl
theorem W5_main_arg1 (c : Dev nD) : W5 m c (Proc.devRef .tc main_arg1) = m ((c : Thread nD τ).loc main_arg1) :=
  calc W5 m c (Proc.devRef .tc main_arg1)
    _ = W4 m c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m c (Proc.devRef .tc main_arg1) := W4_of_ne m c main_arg1 (by decide)
    _ = W2 m c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m c (Proc.devRef .tc main_arg1) := W2_of_ne m c main_arg1 (by decide)
    _ = W0 m c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg1) := rfl
theorem W5_main_arg2 (c : Dev nD) : W5 m c (Proc.devRef .tc main_arg2) = m ((c : Thread nD τ).loc main_arg2) :=
  calc W5 m c (Proc.devRef .tc main_arg2)
    _ = W4 m c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m c (Proc.devRef .tc main_arg2) := W4_of_ne m c main_arg2 (by decide)
    _ = W2 m c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m c (Proc.devRef .tc main_arg2) := W2_of_ne m c main_arg2 (by decide)
    _ = W0 m c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg2) := rfl
theorem W5_main_arg3 (c : Dev nD) : W5 m c (Proc.devRef .tc main_arg3) = m ((c : Thread nD τ).loc main_arg3) :=
  calc W5 m c (Proc.devRef .tc main_arg3)
    _ = W4 m c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m c (Proc.devRef .tc main_arg3) := (W4_arr m c 0).trans (((dat1 (V3 m) c).arrAt_in 0 rfl _).trans (A_eq1 (V3 m) c 0))
    _ = W2 m c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m c (Proc.devRef .tc main_arg3) := W2_of_ne m c main_arg3 (by decide)
    _ = W0 m c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg3) := rfl
theorem W5_main_arg4 (c : Dev nD) : W5 m c (Proc.devRef .tc main_arg4) = m ((c : Thread nD τ).loc main_arg4) :=
  calc W5 m c (Proc.devRef .tc main_arg4)
    _ = W4 m c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m c (Proc.devRef .tc main_arg4) := W4_of_ne m c main_arg4 (by decide)
    _ = W2 m c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m c (Proc.devRef .tc main_arg4) := W2_of_ne m c main_arg4 (by decide)
    _ = W0 m c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg4) := rfl
theorem W5_main_arg5 (c : Dev nD) : W5 m c (Proc.devRef .tc main_arg5) = m ((c : Thread nD τ).loc main_arg5) :=
  calc W5 m c (Proc.devRef .tc main_arg5)
    _ = W4 m c (Proc.devRef .tc main_arg5) := StableHlo.after_of_forall_not_mem (b := Proc.devRef .tc main_arg5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m c (Proc.devRef .tc main_arg5) := (W4_arr m c 2).trans (((dat1 (V3 m) c).arrAt_in 2 rfl _).trans (A_eq1 (V3 m) c 2))
    _ = W2 m c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m c (Proc.devRef .tc main_arg5) := W2_of_ne m c main_arg5 (by decide)
    _ = W0 m c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg5) := rfl
theorem W5_main_arg6 (c : Dev nD) : W5 m c (Proc.devRef .tc main_arg6) = m ((c : Thread nD τ).loc main_arg6) :=
  calc W5 m c (Proc.devRef .tc main_arg6)
    _ = W4 m c (Proc.devRef .tc main_arg6) := StableHlo.after_of_forall_not_mem (b := Proc.devRef .tc main_arg6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m c (Proc.devRef .tc main_arg6) := (W4_arr m c 3).trans (((dat1 (V3 m) c).arrAt_in 3 rfl _).trans (A_eq1 (V3 m) c 3))
    _ = W2 m c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m c (Proc.devRef .tc main_arg6) := W2_of_ne m c main_arg6 (by decide)
    _ = W0 m c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg6) := rfl
theorem W5_main_arg7 (c : Dev nD) : W5 m c (Proc.devRef .tc main_arg7) = m ((c : Thread nD τ).loc main_arg7) :=
  calc W5 m c (Proc.devRef .tc main_arg7)
    _ = W4 m c (Proc.devRef .tc main_arg7) := StableHlo.after_of_forall_not_mem (b := Proc.devRef .tc main_arg7) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m c (Proc.devRef .tc main_arg7) := (W4_arr m c 4).trans (((dat1 (V3 m) c).arrAt_in 4 rfl _).trans (A_eq1 (V3 m) c 4))
    _ = W2 m c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m c (Proc.devRef .tc main_arg7) := W2_of_ne m c main_arg7 (by decide)
    _ = W0 m c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg7) := rfl
theorem W5_main_arg8 (c : Dev nD) : W5 m c (Proc.devRef .tc main_arg8) = m ((c : Thread nD τ).loc main_arg8) :=
  calc W5 m c (Proc.devRef .tc main_arg8)
    _ = W4 m c (Proc.devRef .tc main_arg8) := StableHlo.after_of_forall_not_mem (b := Proc.devRef .tc main_arg8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m c (Proc.devRef .tc main_arg8) := (W4_arr m c 5).trans (((dat1 (V3 m) c).arrAt_in 5 rfl _).trans (A_eq1 (V3 m) c 5))
    _ = W2 m c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m c (Proc.devRef .tc main_arg8) := W2_of_ne m c main_arg8 (by decide)
    _ = W0 m c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg8) := rfl
theorem W5_main_arg9 (c : Dev nD) : W5 m c (Proc.devRef .tc main_arg9) = m ((c : Thread nD τ).loc main_arg9) :=
  calc W5 m c (Proc.devRef .tc main_arg9)
    _ = W4 m c (Proc.devRef .tc main_arg9) := StableHlo.after_of_forall_not_mem (b := Proc.devRef .tc main_arg9) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m c (Proc.devRef .tc main_arg9) := (W4_arr m c 6).trans (((dat1 (V3 m) c).arrAt_in 6 rfl _).trans (A_eq1 (V3 m) c 6))
    _ = W2 m c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m c (Proc.devRef .tc main_arg9) := W2_of_ne m c main_arg9 (by decide)
    _ = W0 m c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg9) := rfl
theorem W5_main_arg10 (c : Dev nD) : W5 m c (Proc.devRef .tc main_arg10) = m ((c : Thread nD τ).loc main_arg10) :=
  calc W5 m c (Proc.devRef .tc main_arg10)
    _ = W4 m c (Proc.devRef .tc main_arg10) := StableHlo.after_of_forall_not_mem (b := Proc.devRef .tc main_arg10) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m c (Proc.devRef .tc main_arg10) := W4_of_ne m c main_arg10 (by decide)
    _ = W2 m c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m c (Proc.devRef .tc main_arg10) := W2_of_ne m c main_arg10 (by decide)
    _ = W0 m c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg10) := rfl
theorem W5_main_arg11 (c : Dev nD) : W5 m c (Proc.devRef .tc main_arg11) = m ((c : Thread nD τ).loc main_arg11) :=
  calc W5 m c (Proc.devRef .tc main_arg11)
    _ = W4 m c (Proc.devRef .tc main_arg11) := StableHlo.after_of_forall_not_mem (b := Proc.devRef .tc main_arg11) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m c (Proc.devRef .tc main_arg11) := W4_of_ne m c main_arg11 (by decide)
    _ = W2 m c (Proc.devRef .tc main_arg11) := StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m c (Proc.devRef .tc main_arg11) := W2_of_ne m c main_arg11 (by decide)
    _ = W0 m c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg11) := rfl

/-! ## The thread state -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at `W5`, the generator register at some state. -/
abbrev Tₙ (c : Dev nD) : sProp 𝕄 := iprop(StableHlo.held (c : Thread nD τ) (Pipeline.ucRefs τ sig) (W5 m c) ∗ ∃ r, prngReg c r)

/-- The last host stretch's exit state is the last thread state beside the core owing nothing. -/
theorem last_step (c : Dev nD) :
    (iprop(StableHlo.held (c : Thread nD τ) (Pipeline.ucRefs τ sig) (W5 m c) ∗ R c) : sProp 𝕄)
      ⊢ iprop(Tₙ m c ∗ ∃ W, owes (c : Thread nD τ) (0 : CellTallies nD τ sig Unit) W) := by
  iintro ⟨Hh, Hp, HO⟩
  isplitl [Hh Hp]
  · isplitl [Hh]; · iexact Hh
    iexact Hp
  iexact HO

/-! ## The regions as segments -/

set_option backward.isDefEq.respectTransparency.types false in
/-- Region 0 over the thread state: entered from every unscoped buffer at `W1`, left at `W2`.  Its arrays are split
    out of the unscoped buffers and put back at the exit contents; the generator register passes into the class invariant
    and out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`.  Its arrays are split
    out of the unscoped buffers and put back at the exit contents; the generator register passes into the class invariant
    and out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and in
    every final state every unscoped buffer of every core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => last_step m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- THE FRAME: every weakly fair execution of @main terminates, nothing faulting, and the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)
      ∧       r.2.mem ((c.tc : Thread nD τ).loc main_arg11) = m ((c.tc : Thread nD τ).loc main_arg11)) :=
  (θ_run defs _ _).mono (fun r h c => ⟨(h c _ (mem_uc main_arg0 (by decide))).trans (W5_main_arg0 m c),
    (h c _ (mem_uc main_arg1 (by decide))).trans (W5_main_arg1 m c),
    (h c _ (mem_uc main_arg2 (by decide))).trans (W5_main_arg2 m c),
    (h c _ (mem_uc main_arg3 (by decide))).trans (W5_main_arg3 m c),
    (h c _ (mem_uc main_arg4 (by decide))).trans (W5_main_arg4 m c),
    (h c _ (mem_uc main_arg5 (by decide))).trans (W5_main_arg5 m c),
    (h c _ (mem_uc main_arg6 (by decide))).trans (W5_main_arg6 m c),
    (h c _ (mem_uc main_arg7 (by decide))).trans (W5_main_arg7 m c),
    (h c _ (mem_uc main_arg8 (by decide))).trans (W5_main_arg8 m c),
    (h c _ (mem_uc main_arg9 (by decide))).trans (W5_main_arg9 m c),
    (h c _ (mem_uc main_arg10 (by decide))).trans (W5_main_arg10 m c),
    (h c _ (mem_uc main_arg11 (by decide))).trans (W5_main_arg11 m c)⟩) (run_all m ρ)

end Cert.KernelIdeal.Fr

end
-- ==== Proof.KernelHostValues.lean ====
/-
  What the host stretches of the idealized kernel program leave in the buffers the regions and the results read, as
  terms of the launch memory: the gathered and joined features and the reshaped basis before region 0, the reshape
  between the regions, the pooled and sliced results after region 1; and that no stretch or region writes an
  argument a later item reads.
-/
import proofs.«120871_j74406013435996_2_alg».proof.Proof.KernelIdealData
import proofs.«120871_j74406013435996_2_alg».proof.Proof.Gen.ReferenceIdeal.Read
import Idealize.ShloMosaic.Lib.StableHlo.Run

set_option maxRecDepth 16384

noncomputable section

namespace Cert.KernelIdeal.HostVal

open Cert.KernelIdeal Cert.KernelIdeal.Gen Cert.KernelIdeal.Fr
open Idealize.ShloMosaic Idealize.ShloMosaic.TcCoe Idealize.SL.Sem Idealize.ShloMosaic.StableHlo

variable (m : (ℓ : Loc nD τ sig) → Buf (Elt Ideal) ℓ) (c : Dev nD)

/-! ## Before region 0 -/

set_option maxHeartbeats 2000000 in
/-- The features array region 0 reads is the reference's gathered and joined features of the same arguments. -/
theorem feats_eq : V1 m c main_v21 = Cert.ReferenceIdeal.Read.val_main_v21 (F := Ideal) (m ((c : Thread nD τ).loc main_arg0)) (m ((c : Thread nD τ).loc main_arg1)) (m ((c : Thread nD τ).loc main_arg2)) (m ((c : Thread nD τ).loc main_arg10)) := by
  show StableHlo.after hostOps0 (W0 m c) (Proc.devRef .tc main_v21) = _
  dsimp only [hostOps0]
  after_results_simp <;> rfl

set_option maxHeartbeats 2000000 in
/-- The basis array region 0 reads is the reference's reshaped basis. -/
theorem basis_eq : V1 m c main_v22 = Cert.ReferenceIdeal.Read.val_main_v34 (F := Ideal) (m ((c : Thread nD τ).loc main_arg4)) := by
  show StableHlo.after hostOps0 (W0 m c) (Proc.devRef .tc main_v22) = _
  dsimp only [hostOps0]
  after_results_simp <;> rfl

/-! ## The arguments region 1 and the last stretch read are as launched -/

theorem W3_main_arg3 : W3 m c (Proc.devRef .tc main_arg3) = m ((c : Thread nD τ).loc main_arg3) :=
  calc W3 m c (Proc.devRef .tc main_arg3)
    _ = W2 m c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m c (Proc.devRef .tc main_arg3) := W2_of_ne m c main_arg3 (by decide)
    _ = W0 m c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg3) := rfl
theorem W3_main_arg5 : W3 m c (Proc.devRef .tc main_arg5) = m ((c : Thread nD τ).loc main_arg5) :=
  calc W3 m c (Proc.devRef .tc main_arg5)
    _ = W2 m c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m c (Proc.devRef .tc main_arg5) := W2_of_ne m c main_arg5 (by decide)
    _ = W0 m c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg5) := rfl
theorem W3_main_arg6 : W3 m c (Proc.devRef .tc main_arg6) = m ((c : Thread nD τ).loc main_arg6) :=
  calc W3 m c (Proc.devRef .tc main_arg6)
    _ = W2 m c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m c (Proc.devRef .tc main_arg6) := W2_of_ne m c main_arg6 (by decide)
    _ = W0 m c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg6) := rfl
theorem W3_main_arg7 : W3 m c (Proc.devRef .tc main_arg7) = m ((c : Thread nD τ).loc main_arg7) :=
  calc W3 m c (Proc.devRef .tc main_arg7)
    _ = W2 m c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m c (Proc.devRef .tc main_arg7) := W2_of_ne m c main_arg7 (by decide)
    _ = W0 m c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg7) := rfl
theorem W3_main_arg8 : W3 m c (Proc.devRef .tc main_arg8) = m ((c : Thread nD τ).loc main_arg8) :=
  calc W3 m c (Proc.devRef .tc main_arg8)
    _ = W2 m c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m c (Proc.devRef .tc main_arg8) := W2_of_ne m c main_arg8 (by decide)
    _ = W0 m c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg8) := rfl
theorem W3_main_arg9 : W3 m c (Proc.devRef .tc main_arg9) = m ((c : Thread nD τ).loc main_arg9) :=
  calc W3 m c (Proc.devRef .tc main_arg9)
    _ = W2 m c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m c (Proc.devRef .tc main_arg9) := W2_of_ne m c main_arg9 (by decide)
    _ = W0 m c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg9) := rfl
theorem W3_main_arg11 : W3 m c (Proc.devRef .tc main_arg11) = m ((c : Thread nD τ).loc main_arg11) :=
  calc W3 m c (Proc.devRef .tc main_arg11)
    _ = W2 m c (Proc.devRef .tc main_arg11) := StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m c (Proc.devRef .tc main_arg11) := W2_of_ne m c main_arg11 (by decide)
    _ = W0 m c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg11) := rfl
theorem W4_main_arg11 : W4 m c (Proc.devRef .tc main_arg11) = m ((c : Thread nD τ).loc main_arg11) :=
  (W4_of_ne m c main_arg11 (by decide)).trans (W3_main_arg11 m c)

/-! ## Between the regions -/

/-- Region 1 reads the reshape of what region 0 left. -/
theorem tmp2_eq : V3 m c main_v24 = shapeCast S32768x304x9 (W2 m c main_v23) shapeCasts_S32768x16x171_S32768x304x9 := by
  show StableHlo.after hostOps1 (W2 m c) (Proc.devRef .tc main_v24) = _
  dsimp only [hostOps1]
  after_results
  rfl

/-! ## After region 1 -/

/-- The pooled array: the edges' results summed into their destination nodes, from zero. -/
def pooled (d : S32768.Idx → BitVec 32) (o : S32768x16x9.Idx → EReal) : S8192x16x9.Idx → EReal :=
  Host.scatterAdd (F := Ideal) scatter_S8192x16x9_S32768x1_S32768x16x9_12_0_0_1
    (broadcastInDim S8192x16x9 ![] bcast_S_S8192x16x9 (constant (F := Ideal) S_ .f32 0x00000000#32))
    (broadcastInDim S32768x1 ![0] bcast_S32768_S32768x1_0 d) o

theorem res0_eq : W5 m c main_v29 = extractStridedSlice S8192x16x1 ![0, 0, 0] (pooled (W4 m c main_arg11) (W4 m c main_v25)) slices_S8192x16x9_S8192x16x1_0_0_0 := by
  show StableHlo.after hostOps2 (W4 m c) (Proc.devRef .tc main_v29) = _
  dsimp only [hostOps2]
  after_results
  rfl
theorem res1_eq : W5 m c main_v30 = extractStridedSlice S8192x16x3 ![0, 0, 1] (pooled (W4 m c main_arg11) (W4 m c main_v25)) slices_S8192x16x9_S8192x16x3_0_0_1 := by
  show StableHlo.after hostOps2 (W4 m c) (Proc.devRef .tc main_v30) = _
  dsimp only [hostOps2]
  after_results
  rfl
theorem res2_eq : W5 m c main_v31 = extractStridedSlice S8192x16x5 ![0, 0, 4] (pooled (W4 m c main_arg11) (W4 m c main_v25)) slices_S8192x16x9_S8192x16x5_0_0_4 := by
  show StableHlo.after hostOps2 (W4 m c) (Proc.devRef .tc main_v31) = _
  dsimp only [hostOps2]
  after_results
  rfl

/-- The reference pools and slices with the same operations. -/
theorem ref_res0 (x0 x1 x2 x3 x4 x5 x6 x7 x8 x9 x10 x11) :
    Cert.ReferenceIdeal.Read.val_main_v41 (F := Ideal) x0 x1 x2 x3 x4 x5 x6 x7 x8 x9 x10 x11
      = extractStridedSlice S8192x16x1 ![0, 0, 0] (pooled x11 (Cert.ReferenceIdeal.Read.val_main_v37 (F := Ideal) x0 x1 x2 x3 x4 x5 x6 x7 x8 x9 x10)) slices_S8192x16x9_S8192x16x1_0_0_0 := rfl
theorem ref_res1 (x0 x1 x2 x3 x4 x5 x6 x7 x8 x9 x10 x11) :
    Cert.ReferenceIdeal.Read.val_main_v42 (F := Ideal) x0 x1 x2 x3 x4 x5 x6 x7 x8 x9 x10 x11
      = extractStridedSlice S8192x16x3 ![0, 0, 1] (pooled x11 (Cert.ReferenceIdeal.Read.val_main_v37 (F := Ideal) x0 x1 x2 x3 x4 x5 x6 x7 x8 x9 x10)) slices_S8192x16x9_S8192x16x3_0_0_1 := rfl
theorem ref_res2 (x0 x1 x2 x3 x4 x5 x6 x7 x8 x9 x10 x11) :
    Cert.ReferenceIdeal.Read.val_main_v43 (F := Ideal) x0 x1 x2 x3 x4 x5 x6 x7 x8 x9 x10 x11
      = extractStridedSlice S8192x16x5 ![0, 0, 4] (pooled x11 (Cert.ReferenceIdeal.Read.val_main_v37 (F := Ideal) x0 x1 x2 x3 x4 x5 x6 x7 x8 x9 x10)) slices_S8192x16x9_S8192x16x5_0_0_4 := rfl

end Cert.KernelIdeal.HostVal

end
-- ==== Proof.BasisBody.lean ====
import proofs.«120871_j74406013435996_2_alg».proof.Proof.Gen.KernelIdeal.Skeleton
import Idealize.ShloMosaic.Lib.ValueIdx
import Idealize.ShloMosaic.Lib.Pipeline.Value
import Idealize.ShloMosaic.PureOps.Ideal.Laws
/-
  The first kernel body, read at an index over the extended reals.

  One grid step holds a block of 256 edges.  For every edge `e` the body multiplies the 16 × 9 matrix of fused
  node features `f e` by the 9 × 171 matrix of basis values `b e`: a batched product, the edge being the batch
  axis of both operands, the 9 fused degrees being contracted (axis 2 of the left operand, axis 1 of the right).
  The reshapes keep the shape and the changes of float format are the identity on the extended reals, and the
  accumulator is the zero word, so entry `(e, c, x)` of the stored value is `∑ₖ f (e, c, k) · b (e, k, x)`.
-/
noncomputable section
namespace Cert.BasisBody
open Cert.KernelIdeal Cert.KernelIdeal.Gen Idealize.ShloMosaic Idealize.ShloMosaic.ValueIdx

/-! ## The operand indices of the batched product, coordinate by coordinate -/

/-- Left operand, batch axis: the output's edge coordinate. -/
theorem lhs_0 (i : S256x16x171.Idx) (q : dot_S256x16x9_S256x9x171_S256x16x171_2_1_1_2_0_0.contr.Idx) :
    (dot_S256x16x9_S256x9x171_S256x16x171_2_1_1_2_0_0.lhsIdx i q 0).val = (i 0).val := by
  unfold DotDims.lhsIdx
  rw [dif_pos (show (0 : Fin S256x16x9.rank) ∈ dot_S256x16x9_S256x9x171_S256x16x171_2_1_1_2_0_0.lhsBatch by decide)]
  rfl

/-- Left operand, free axis: the output's row coordinate. -/
theorem lhs_1 (i : S256x16x171.Idx) (q : dot_S256x16x9_S256x9x171_S256x16x171_2_1_1_2_0_0.contr.Idx) :
    (dot_S256x16x9_S256x9x171_S256x16x171_2_1_1_2_0_0.lhsIdx i q 1).val = (i 1).val := by
  unfold DotDims.lhsIdx
  rw [dif_neg (show ¬(1 : Fin S256x16x9.rank) ∈ dot_S256x16x9_S256x9x171_S256x16x171_2_1_1_2_0_0.lhsBatch by decide),
    dif_pos (show (1 : Fin S256x16x9.rank) ∈ dot_S256x16x9_S256x9x171_S256x16x171_2_1_1_2_0_0.lhsNonContracting by decide)]
  rfl

/-- Left operand, contracted axis: the contraction index. -/
theorem lhs_2 (i : S256x16x171.Idx) (q : dot_S256x16x9_S256x9x171_S256x16x171_2_1_1_2_0_0.contr.Idx) :
    (dot_S256x16x9_S256x9x171_S256x16x171_2_1_1_2_0_0.lhsIdx i q 2).val = (q ⟨0, by decide⟩).val :=
  dot_S256x16x9_S256x9x171_S256x16x171_2_1_1_2_0_0.lhsIdx_val_of_single rfl i q

/-- Right operand, batch axis: the output's edge coordinate. -/
theorem rhs_0 (i : S256x16x171.Idx) (q : dot_S256x16x9_S256x9x171_S256x16x171_2_1_1_2_0_0.contr.Idx) :
    (dot_S256x16x9_S256x9x171_S256x16x171_2_1_1_2_0_0.rhsIdx i q 0).val = (i 0).val := by
  unfold DotDims.rhsIdx
  rw [dif_pos (show (0 : Fin S256x9x171.rank) ∈ dot_S256x16x9_S256x9x171_S256x16x171_2_1_1_2_0_0.rhsBatch by decide)]
  rfl

/-- Right operand, contracted axis: the contraction index. -/
theorem rhs_1 (i : S256x16x171.Idx) (q : dot_S256x16x9_S256x9x171_S256x16x171_2_1_1_2_0_0.contr.Idx) :
    (dot_S256x16x9_S256x9x171_S256x16x171_2_1_1_2_0_0.rhsIdx i q 1).val = (q ⟨0, by decide⟩).val :=
  dot_S256x16x9_S256x9x171_S256x16x171_2_1_1_2_0_0.rhsIdx_val_of_single rfl i q

/-- Right operand, free axis: the output's column coordinate. -/
theorem rhs_2 (i : S256x16x171.Idx) (q : dot_S256x16x9_S256x9x171_S256x16x171_2_1_1_2_0_0.contr.Idx) :
    (dot_S256x16x9_S256x9x171_S256x16x171_2_1_1_2_0_0.rhsIdx i q 2).val = (i 2).val := by
  unfold DotDims.rhsIdx
  rw [dif_neg (show ¬(2 : Fin S256x9x171.rank) ∈ dot_S256x16x9_S256x9x171_S256x16x171_2_1_1_2_0_0.rhsBatch by decide),
    dif_pos (show (2 : Fin S256x9x171.rank) ∈ dot_S256x16x9_S256x9x171_S256x16x171_2_1_1_2_0_0.rhsNonContracting by decide)]
  rfl

/-! ## The body at an index -/

/-- A block of 256 edges: entry (e, c, x) of the body's stored value is the contraction over the 9 fused degrees. -/
theorem basis_apply (f : Vec Ideal S256x16x9 .f32) (b : Vec Ideal S256x9x171 .f32) (e : Fin 256) (c : Fin 16) (x : Fin 171) :
    k0_pay1 (F := Ideal) f b (ix3 e c x) = ∑ k : Fin 9, f (ix3 e c k) * b (ix3 e k x) := by
  unfold k0_pay1
  -- the two reshapes keep the shape
  rw [shapeCast_self, shapeCast_self]
  -- the outer change of format is the identity; the product into the zero accumulator is the sum over the
  -- contraction index
  refine (Ideal.matmul_constant_zero_apply dot_S256x16x9_S256x9x171_S256x16x171_2_1_1_2_0_0 none _ _ (ix3 e c x)).trans ?_
  -- the contraction index is its one coordinate, below 9
  rw [← Equiv.sum_comp (contrEquiv1 dot_S256x16x9_S256x9x171_S256x16x171_2_1_1_2_0_0 9 rfl rfl).symm]
  refine Finset.sum_congr rfl fun k _ => ?_
  have hk := contrEquiv1_symm_val dot_S256x16x9_S256x9x171_S256x16x171_2_1_1_2_0_0 9 rfl rfl k
  have el : dot_S256x16x9_S256x9x171_S256x16x171_2_1_1_2_0_0.lhsIdx (ix3 e c x)
      ((contrEquiv1 dot_S256x16x9_S256x9x171_S256x16x171_2_1_1_2_0_0 9 rfl rfl).symm k) = ix3 e c k :=
    funext fun a => Fin.ext (by
      match a with
      | ⟨0, _⟩ => exact lhs_0 _ _
      | ⟨1, _⟩ => exact lhs_1 _ _
      | ⟨2, _⟩ => exact (lhs_2 _ _).trans hk)
  have er : dot_S256x16x9_S256x9x171_S256x16x171_2_1_1_2_0_0.rhsIdx (ix3 e c x)
      ((contrEquiv1 dot_S256x16x9_S256x9x171_S256x16x171_2_1_1_2_0_0 9 rfl rfl).symm k) = ix3 e k x :=
    funext fun a => Fin.ext (by
      match a with
      | ⟨0, _⟩ => exact rhs_0 _ _
      | ⟨1, _⟩ => exact (rhs_1 _ _).trans hk
      | ⟨2, _⟩ => exact rhs_2 _ _)
  rw [el, er]
  -- the operands' changes of format are the identity
  rfl

end Cert.BasisBody

end
-- ==== Proof.Region0Value.lean ====
/-
  Region 0's output array, as one function of its two input arrays.

  A grid step t holds edges 256 t … 256 t + 255: all three windows have block index (t, 0, 0).  For each of its edges
  the step multiplies the 16 × 9 matrix of fused features by the 9 × 171 matrix of basis values, so what it writes
  back is its block of the per-edge contraction of the WHOLE arrays.  The 128 blocks tile the 32768 edges (edge E is
  in the block of step E / 256), so after the region the output array is that contraction.
-/
import proofs.«120871_j74406013435996_2_alg».proof.Proof.KernelIdealData
import proofs.«120871_j74406013435996_2_alg».proof.Proof.BasisBody
import Idealize.ShloMosaic.Lib.Pipeline.Value
import Idealize.ShloMosaic.Lib.ValueIdx
set_option maxRecDepth 16384
noncomputable section
namespace Cert.KernelIdeal.Val0
open Cert.KernelIdeal Cert.KernelIdeal.Gen Cert.KernelIdeal.Fr Idealize.ShloMosaic Idealize.ShloMosaic.TcCoe Idealize.ShloMosaic.ValueIdx Idealize.SL.Sem
open Idealize.ShloMosaic.Pipeline (Dat)

/-- The per-edge contraction of whole arrays: entry (E, c, x) is the sum over the 9 fused degrees. -/
def contract (f : S32768x16x9.Idx → EReal) (b : S32768x9x171.Idx → EReal) : S32768x16x171.Idx → EReal :=
  fun i => ∑ k : Fin 9, f (ix3 (n0 := 32768) (n1 := 16) (i 0) (i 1) k) * b (ix3 (n0 := 32768) (n2 := 171) (i 0) k (i 2))

theorem contract_apply (f : S32768x16x9.Idx → EReal) (b : S32768x9x171.Idx → EReal) (E : Fin 32768) (c : Fin 16) (x : Fin 171) :
    contract f b (ix3 E c x) = ∑ k : Fin 9, f (ix3 E c k) * b (ix3 E k x) := rfl

theorem hz : (![0, 0, 0] : Fin 3 → Nat) = fun _ => 0 := funext fun a => by fin_cases a <;> rfl

/-- The three index maps, decided over the 128 grid points: block (t, 0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- The stored value of a grid step at a block index, for any two input blocks. -/
theorem out_apply (x0 : Vec Ideal S256x16x9 .f32) (x1 : Vec Ideal S256x9x171 .f32) (e : Fin 256) (c : Fin 16) (x : Fin 171) :
    out0_2 (F := Ideal) x0 x1 (ix3 e c x) = ∑ k : Fin 9, x0 (ix3 e c k) * x1 (ix3 e k x) := by
  unfold out0_2
  rw [View.canon_unit_zero hz]
  simp only [View.ld_unit_zero (S := S256x16x9) hz, View.ld_unit_zero (S := S256x9x171) hz]
  exact Cert.BasisBody.basis_apply x0 x1 e c x

/-- Window 0's block at point t is edges 256 t … 256 t + 255 of the features array. -/
theorem rd0 (A : S32768x16x9.Idx → EReal) (t : Fin cfg0.N) (e : Fin 256) (c : Fin 16) (k : Fin 9) (E : Fin 32768)
    (hE : E.val = t.val * 256 + e.val) :
    ((cfg0.win 0).blk t).view.read (Elt Ideal) A (ix3 e c k) = A (ix3 E c k) := by
  obtain ⟨h0, h1, h2, -⟩ := idx_facts t
  show A (((cfg0.win 0).blk t).view.emb (ix3 e c k)) = A (ix3 E c k)
  refine congrArg A ?_
  funext a; apply Fin.ext
  match a with
  | ⟨0, _⟩ => show win0_0.index t (0 : Fin 3) * 256 + 1 * e.val = E.val; omega
  | ⟨1, _⟩ => show win0_0.index t (1 : Fin 3) * 16 + 1 * c.val = c.val; omega
  | ⟨2, _⟩ => show win0_0.index t (2 : Fin 3) * 9 + 1 * k.val = k.val; omega

/-- Window 1's block at point t is edges 256 t … 256 t + 255 of the basis array. -/
theorem rd1 (B : S32768x9x171.Idx → EReal) (t : Fin cfg0.N) (e : Fin 256) (k : Fin 9) (x : Fin 171) (E : Fin 32768)
    (hE : E.val = t.val * 256 + e.val) :
    ((cfg0.win 1).blk t).view.read (Elt Ideal) B (ix3 e k x) = B (ix3 E k x) := by
  obtain ⟨-, -, -, h0, h1, h2, -⟩ := idx_facts t
  show B (((cfg0.win 1).blk t).view.emb (ix3 e k x)) = B (ix3 E k x)
  refine congrArg B ?_
  funext a; apply Fin.ext
  match a with
  | ⟨0, _⟩ => show win0_1.index t (0 : Fin 3) * 256 + 1 * e.val = E.val; omega
  | ⟨1, _⟩ => show win0_1.index t (1 : Fin 3) * 9 + 1 * k.val = k.val; omega
  | ⟨2, _⟩ => show win0_1.index t (2 : Fin 3) * 171 + 1 * x.val = x.val; omega

/-- Window 2's block at point t sits at edges 256 t … 256 t + 255 of the output array. -/
theorem emb2 (t : Fin cfg0.N) (e : Fin 256) (c : Fin 16) (x : Fin 171) (E : Fin 32768)
    (hE : E.val = t.val * 256 + e.val) :
    ((cfg0.win 2).blk t).view.emb (ix3 e c x) = (ix3 E c x : S32768x16x171.Idx) := by
  obtain ⟨-, -, -, -, -, -, h0, h1, h2⟩ := idx_facts t
  funext a; apply Fin.ext
  match a with
  | ⟨0, _⟩ => show win0_2.index t (0 : Fin 3) * 256 + 1 * e.val = E.val; omega
  | ⟨1, _⟩ => show win0_2.index t (1 : Fin 3) * 16 + 1 * c.val = c.val; omega
  | ⟨2, _⟩ => show win0_2.index t (2 : Fin 3) * 171 + 1 * x.val = x.val; omega

/-- What a point computes from its two blocks is its block of the whole arrays' contraction. -/
theorem point_eq (A : S32768x16x9.Idx → EReal) (B : S32768x9x171.Idx → EReal) (t : Fin cfg0.N) :
    out0_2 (F := Ideal) (((cfg0.win 0).blk t).view.read (Elt Ideal) A) (((cfg0.win 1).blk t).view.read (Elt Ideal) B)
      = ((cfg0.win 2).blk t).view.read (Elt Ideal) (contract A B) := by
  have hN : cfg0.N = 128 := N_0
  have ht : t.val < 128 := hN ▸ t.isLt
  funext j
  obtain ⟨e, c, x, rfl⟩ : ∃ (e : Fin 256) (c : Fin 16) (x : Fin 171), j = ix3 e c x := ⟨j 0, j 1, j 2, eq_ix3 j⟩
  have he : e.val < 256 := e.isLt
  obtain ⟨E, hE⟩ : ∃ E : Fin 32768, E.val = t.val * 256 + e.val := ⟨⟨t.val * 256 + e.val, by omega⟩, rfl⟩
  refine (out_apply _ _ e c x).trans ?_
  show _ = contract A B (((cfg0.win 2).blk t).view.emb (ix3 e c x))
  rw [emb2 t e c x E hE, contract_apply]
  refine Finset.sum_congr rfl fun k _ => ?_
  rw [rd0 A t e c k E hE, rd1 B t e k x E hE]

variable (V : (c : Dev nD) → (b : Ref sig .tc) → Buf (Elt Ideal) ((c : Thread nD τ).loc b))

/-- What point t writes back is block t of the contraction of the two input arrays as the region found them. -/
theorem flushed_eq (c : Dev nD) (t : Fin cfg0.N) :
    (dat0 (F := Ideal) V c).flushed 2 t
      = ((cfg0.win 2).blk t).view.read (Elt Ideal) (contract (V c main_v21) (V c main_v22)) := by
  show (cfg0.win 2).cut (grid0.coords t) ((dat0 (F := Ideal) V c).after 2 t) = _
  rw [after0_2]
  exact point_eq (V c main_v21) (V c main_v22) t

/-- An index of the output array is in point t's block iff each coordinate is in the block's range on its axis. -/
theorem mem_blk (t : Fin cfg0.N) (i : S32768x16x171.Idx) :
    i ∈ ((cfg0.win 2).blk t).view.set ↔ ∀ a : Fin 3, win0_2.index t a * S256x16x171.size a ≤ (i a).val
      ∧ (i a).val < win0_2.index t a * S256x16x171.size a + S256x16x171.size a := by
  show i ∈ ((View.whole main_v23).slice (win0_2.rect t)).set ↔ _
  rw [View.set_slice_whole, Rect.mem_set_unit]
  exact Iff.rfl

/-- Every index of the output array is in the block of the point its edge divided by 256 names. -/
theorem cover (i : S32768x16x171.Idx) :
    ∃ t : Fin cfg0.N, (cfg0.win 2).flush t = true ∧ i ∈ ((cfg0.win 2).blk t).view.set := by
  have hN : cfg0.N = 128 := N_0
  have hi0 : (i 0).val < 32768 := (i 0).isLt
  have hi1 : (i 1).val < 16 := (i 1).isLt
  have hi2 : (i 2).val < 171 := (i 2).isLt
  obtain ⟨t, ht⟩ : ∃ t : Fin cfg0.N, t.val = (i 0).val / 256 := ⟨⟨(i 0).val / 256, by rw [hN]; omega⟩, rfl⟩
  obtain ⟨-, -, -, -, -, -, h0, h1, h2⟩ := idx_facts t
  refine ⟨t, flush0_2 t, ?_⟩
  rw [mem_blk]
  intro a
  match a with
  | ⟨0, _⟩ => show win0_2.index t (0 : Fin 3) * 256 ≤ (i 0).val ∧ (i 0).val < win0_2.index t (0 : Fin 3) * 256 + 256; omega
  | ⟨1, _⟩ => show win0_2.index t (1 : Fin 3) * 16 ≤ (i 1).val ∧ (i 1).val < win0_2.index t (1 : Fin 3) * 16 + 16; omega
  | ⟨2, _⟩ => show win0_2.index t (2 : Fin 3) * 171 ≤ (i 2).val ∧ (i 2).val < win0_2.index t (2 : Fin 3) * 171 + 171; omega

/-- After region 0 its output array is the contraction of the two input arrays as the region found them. -/
theorem region0_final (c : Dev nD) :
    (dat0 (F := Ideal) V c).arrAt 2 cfg0.N = contract (V c main_v21) (V c main_v22) :=
  (dat0 (F := Ideal) V c).arrAt_eq_of_cover 2 (contract (V c main_v21) (V c main_v22))
    (fun t _ => flushed_eq V c t) cover

end Cert.KernelIdeal.Val0
end
-- ==== Proof.RadialSpec.lean ====
/-
  The radial network of one edge, as plain formulas over the extended reals.

  An edge carries two scalar features `ef 0`, `ef 1`.  Its radial weights are produced by a three-layer
  perceptron: `h1 = relu (ef · W1 + b1)` (32 entries), `h2 = relu (h1 · W2 + b2)` (32 entries) and the flat
  weight row `h2 · W3` (4864 = 16 · 304 entries), read as a 16 × 304 matrix: entry `(i, j)` sits in column
  `i * 304 + j`.  Every sum is a finite sum over the contraction index, and the rectifier is the maximum with the
  zero word (kept as a word: both programs compare with the same one).
-/
import Idealize.ShloMosaic.PureOps.Ideal
import Idealize.ShloMosaic.Lib.ValueIdx

noncomputable section

namespace Cert.Radial

open Idealize.ShloMosaic Idealize.ShloMosaic.ValueIdx

/-- The zero the rectifier compares with. -/
abbrev zero : EReal := Ideal.ofBits .f32 0x00000000#32

/-- First hidden layer of one edge: `max (∑ₖ ef k · W1[k, j] + b1[j]) 0`. -/
def hid1 (ef : Fin 2 → EReal) (w1 : (⟨2, ![2, 32]⟩ : Shape).Idx → EReal) (b1 : (⟨1, ![32]⟩ : Shape).Idx → EReal)
    (j : Fin 32) : EReal :=
  max ((∑ k : Fin 2, ef k * w1 (ix2 k j)) + b1 (ix1 j)) zero

/-- Second hidden layer of one edge: `max (∑ₖ h1 k · W2[k, j] + b2[j]) 0`. -/
def hid2 (ef : Fin 2 → EReal) (w1 : (⟨2, ![2, 32]⟩ : Shape).Idx → EReal) (b1 : (⟨1, ![32]⟩ : Shape).Idx → EReal)
    (w2 : (⟨2, ![32, 32]⟩ : Shape).Idx → EReal) (b2 : (⟨1, ![32]⟩ : Shape).Idx → EReal) (j : Fin 32) : EReal :=
  max ((∑ k : Fin 32, hid1 ef w1 b1 k * w2 (ix2 k j)) + b2 (ix1 j)) zero

/-- The flat radial weight row of one edge: `∑ₖ h2 k · W3[k, n]`. -/
def rwf (ef : Fin 2 → EReal) (w1 : (⟨2, ![2, 32]⟩ : Shape).Idx → EReal) (b1 : (⟨1, ![32]⟩ : Shape).Idx → EReal)
    (w2 : (⟨2, ![32, 32]⟩ : Shape).Idx → EReal) (b2 : (⟨1, ![32]⟩ : Shape).Idx → EReal)
    (w3 : (⟨2, ![32, 4864]⟩ : Shape).Idx → EReal) (n : Fin 4864) : EReal :=
  ∑ k : Fin 32, hid2 ef w1 b1 w2 b2 k * w3 (ix2 k n)

/-- The flat column of the weight matrix's entry `(i, j)`, `i < 16`, `j < 304`. -/
def col (i : Fin 16) (j : Fin 304) : Fin 4864 :=
  ⟨i.val * 304 + j.val, by have := i.isLt; have := j.isLt; omega⟩

theorem col_val (i : Fin 16) (j : Fin 304) : (col i j).val = i.val * 304 + j.val := rfl

end Cert.Radial

end
-- ==== Proof.FinalBody.lean ====
/-
  The second kernel body, read at an index over the extended reals.

  One grid step holds a block of 128 edges.  For every edge the body runs the radial perceptron — two rectified affine
  layers of width 32 and a linear layer to 4864 = 16 · 304 entries, each product a plain matrix product into the zero
  accumulator, each change of float format the identity —, reads the flat row as a 16 × 304 matrix (entry (i, j) is
  column i · 304 + j), and multiplies it with the edge's 304 × 9 reshaped contraction: a batched product, the edge
  being the batch axis.  So entry (e, i, q) of the stored value is the sum over j < 304 of the edge's radial weight
  (i, j) times its reshaped contraction (j, q).
-/
import proofs.«120871_j74406013435996_2_alg».proof.Proof.Gen.KernelIdeal.Skeleton
import proofs.«120871_j74406013435996_2_alg».proof.Proof.RadialSpec
import Idealize.ShloMosaic.Lib.ValueIdx
import Idealize.ShloMosaic.Lib.Pipeline.Value
import Idealize.ShloMosaic.Lib.ValueLayout
import Idealize.ShloMosaic.PureOps.Ideal.Laws
noncomputable section
namespace Cert.FinalBody
open Cert.KernelIdeal Cert.KernelIdeal.Gen Idealize.ShloMosaic Idealize.ShloMosaic.ValueIdx

/-! ### The first layer's product: a block of edge features times the first weight matrix -/

theorem mm1_lhs0 (i : S128x32.Idx) (q : dot_S128x2_S2x32_S128x32_1_0_0_1_n_n.contr.Idx) :
    (dot_S128x2_S2x32_S128x32_1_0_0_1_n_n.lhsIdx i q 0).val = (i 0).val := by
  unfold DotDims.lhsIdx
  rw [dif_neg (show ¬(0 : Fin S128x2.rank) ∈ dot_S128x2_S2x32_S128x32_1_0_0_1_n_n.lhsBatch by decide), dif_pos (show (0 : Fin S128x2.rank) ∈ dot_S128x2_S2x32_S128x32_1_0_0_1_n_n.lhsNonContracting by decide)]
  rfl
theorem mm1_lhs1 (i : S128x32.Idx) (q : dot_S128x2_S2x32_S128x32_1_0_0_1_n_n.contr.Idx) :
    (dot_S128x2_S2x32_S128x32_1_0_0_1_n_n.lhsIdx i q 1).val = (q ⟨0, by decide⟩).val :=
  dot_S128x2_S2x32_S128x32_1_0_0_1_n_n.lhsIdx_val_of_single rfl i q
theorem mm1_rhs0 (i : S128x32.Idx) (q : dot_S128x2_S2x32_S128x32_1_0_0_1_n_n.contr.Idx) :
    (dot_S128x2_S2x32_S128x32_1_0_0_1_n_n.rhsIdx i q 0).val = (q ⟨0, by decide⟩).val :=
  dot_S128x2_S2x32_S128x32_1_0_0_1_n_n.rhsIdx_val_of_single rfl i q
theorem mm1_rhs1 (i : S128x32.Idx) (q : dot_S128x2_S2x32_S128x32_1_0_0_1_n_n.contr.Idx) :
    (dot_S128x2_S2x32_S128x32_1_0_0_1_n_n.rhsIdx i q 1).val = (i 1).val := by
  unfold DotDims.rhsIdx
  rw [dif_neg (show ¬(1 : Fin S2x32.rank) ∈ dot_S128x2_S2x32_S128x32_1_0_0_1_n_n.rhsBatch by decide), dif_pos (show (1 : Fin S2x32.rank) ∈ dot_S128x2_S2x32_S128x32_1_0_0_1_n_n.rhsNonContracting by decide)]
  rfl

/-- The product into the zero accumulator, read at row `r` and column `c`: the sum over the 2 contraction
    positions of the left operand's row times the right operand's column. -/
theorem mm1_apply {φ₁ φ₂ : FTy} (x : FVec Ideal S128x2 φ₁) (y : FVec Ideal S2x32 φ₂) (r : Fin 128) (c : Fin 32) :
    matmul dot_S128x2_S2x32_S128x32_1_0_0_1_n_n none x y (constant S128x32 .f32 0x00000000#32) (ix2 r c)
      = ∑ k : Fin 2, (x (ix2 r k) : EReal) * (y (ix2 k c) : EReal) := by
  refine (Ideal.matmul_constant_zero_apply dot_S128x2_S2x32_S128x32_1_0_0_1_n_n none x y (ix2 r c)).trans ?_
  rw [← Equiv.sum_comp (contrEquiv1 dot_S128x2_S2x32_S128x32_1_0_0_1_n_n 2 rfl rfl).symm]
  refine Finset.sum_congr rfl fun k _ => ?_
  have hk := contrEquiv1_symm_val dot_S128x2_S2x32_S128x32_1_0_0_1_n_n 2 rfl rfl k
  have el : dot_S128x2_S2x32_S128x32_1_0_0_1_n_n.lhsIdx (ix2 r c) ((contrEquiv1 dot_S128x2_S2x32_S128x32_1_0_0_1_n_n 2 rfl rfl).symm k) = ix2 r k := funext fun a => Fin.ext (by
    match a with
    | ⟨0, _⟩ => exact mm1_lhs0 _ _
    | ⟨1, _⟩ => exact (mm1_lhs1 _ _).trans hk)
  have er : dot_S128x2_S2x32_S128x32_1_0_0_1_n_n.rhsIdx (ix2 r c) ((contrEquiv1 dot_S128x2_S2x32_S128x32_1_0_0_1_n_n 2 rfl rfl).symm k) = ix2 k c := funext fun a => Fin.ext (by
    match a with
    | ⟨0, _⟩ => exact (mm1_rhs0 _ _).trans hk
    | ⟨1, _⟩ => exact mm1_rhs1 _ _)
  rw [el, er]

/-! ### The second layer's product -/

theorem mm2_lhs0 (i : S128x32.Idx) (q : dot_S128x32_S32x32_S128x32_1_0_0_1_n_n.contr.Idx) :
    (dot_S128x32_S32x32_S128x32_1_0_0_1_n_n.lhsIdx i q 0).val = (i 0).val := by
  unfold DotDims.lhsIdx
  rw [dif_neg (show ¬(0 : Fin S128x32.rank) ∈ dot_S128x32_S32x32_S128x32_1_0_0_1_n_n.lhsBatch by decide), dif_pos (show (0 : Fin S128x32.rank) ∈ dot_S128x32_S32x32_S128x32_1_0_0_1_n_n.lhsNonContracting by decide)]
  rfl
theorem mm2_lhs1 (i : S128x32.Idx) (q : dot_S128x32_S32x32_S128x32_1_0_0_1_n_n.contr.Idx) :
    (dot_S128x32_S32x32_S128x32_1_0_0_1_n_n.lhsIdx i q 1).val = (q ⟨0, by decide⟩).val :=
  dot_S128x32_S32x32_S128x32_1_0_0_1_n_n.lhsIdx_val_of_single rfl i q
theorem mm2_rhs0 (i : S128x32.Idx) (q : dot_S128x32_S32x32_S128x32_1_0_0_1_n_n.contr.Idx) :
    (dot_S128x32_S32x32_S128x32_1_0_0_1_n_n.rhsIdx i q 0).val = (q ⟨0, by decide⟩).val :=
  dot_S128x32_S32x32_S128x32_1_0_0_1_n_n.rhsIdx_val_of_single rfl i q
theorem mm2_rhs1 (i : S128x32.Idx) (q : dot_S128x32_S32x32_S128x32_1_0_0_1_n_n.contr.Idx) :
    (dot_S128x32_S32x32_S128x32_1_0_0_1_n_n.rhsIdx i q 1).val = (i 1).val := by
  unfold DotDims.rhsIdx
  rw [dif_neg (show ¬(1 : Fin S32x32.rank) ∈ dot_S128x32_S32x32_S128x32_1_0_0_1_n_n.rhsBatch by decide), dif_pos (show (1 : Fin S32x32.rank) ∈ dot_S128x32_S32x32_S128x32_1_0_0_1_n_n.rhsNonContracting by decide)]
  rfl

/-- The product into the zero accumulator, read at row `r` and column `c`: the sum over the 32 contraction
    positions of the left operand's row times the right operand's column. -/
theorem mm2_apply {φ₁ φ₂ : FTy} (x : FVec Ideal S128x32 φ₁) (y : FVec Ideal S32x32 φ₂) (r : Fin 128) (c : Fin 32) :
    matmul dot_S128x32_S32x32_S128x32_1_0_0_1_n_n none x y (constant S128x32 .f32 0x00000000#32) (ix2 r c)
      = ∑ k : Fin 32, (x (ix2 r k) : EReal) * (y (ix2 k c) : EReal) := by
  refine (Ideal.matmul_constant_zero_apply dot_S128x32_S32x32_S128x32_1_0_0_1_n_n none x y (ix2 r c)).trans ?_
  rw [← Equiv.sum_comp (contrEquiv1 dot_S128x32_S32x32_S128x32_1_0_0_1_n_n 32 rfl rfl).symm]
  refine Finset.sum_congr rfl fun k _ => ?_
  have hk := contrEquiv1_symm_val dot_S128x32_S32x32_S128x32_1_0_0_1_n_n 32 rfl rfl k
  have el : dot_S128x32_S32x32_S128x32_1_0_0_1_n_n.lhsIdx (ix2 r c) ((contrEquiv1 dot_S128x32_S32x32_S128x32_1_0_0_1_n_n 32 rfl rfl).symm k) = ix2 r k := funext fun a => Fin.ext (by
    match a with
    | ⟨0, _⟩ => exact mm2_lhs0 _ _
    | ⟨1, _⟩ => exact (mm2_lhs1 _ _).trans hk)
  have er : dot_S128x32_S32x32_S128x32_1_0_0_1_n_n.rhsIdx (ix2 r c) ((contrEquiv1 dot_S128x32_S32x32_S128x32_1_0_0_1_n_n 32 rfl rfl).symm k) = ix2 k c := funext fun a => Fin.ext (by
    match a with
    | ⟨0, _⟩ => exact (mm2_rhs0 _ _).trans hk
    | ⟨1, _⟩ => exact mm2_rhs1 _ _)
  rw [el, er]

/-! ### The third layer's product: the flat radial weight rows -/

theorem mm3_lhs0 (i : S128x4864.Idx) (q : dot_S128x32_S32x4864_S128x4864_1_0_0_1_n_n.contr.Idx) :
    (dot_S128x32_S32x4864_S128x4864_1_0_0_1_n_n.lhsIdx i q 0).val = (i 0).val := by
  unfold DotDims.lhsIdx
  rw [dif_neg (show ¬(0 : Fin S128x32.rank) ∈ dot_S128x32_S32x4864_S128x4864_1_0_0_1_n_n.lhsBatch by decide), dif_pos (show (0 : Fin S128x32.rank) ∈ dot_S128x32_S32x4864_S128x4864_1_0_0_1_n_n.lhsNonContracting by decide)]
  rfl
theorem mm3_lhs1 (i : S128x4864.Idx) (q : dot_S128x32_S32x4864_S128x4864_1_0_0_1_n_n.contr.Idx) :
    (dot_S128x32_S32x4864_S128x4864_1_0_0_1_n_n.lhsIdx i q 1).val = (q ⟨0, by decide⟩).val :=
  dot_S128x32_S32x4864_S128x4864_1_0_0_1_n_n.lhsIdx_val_of_single rfl i q
theorem mm3_rhs0 (i : S128x4864.Idx) (q : dot_S128x32_S32x4864_S128x4864_1_0_0_1_n_n.contr.Idx) :
    (dot_S128x32_S32x4864_S128x4864_1_0_0_1_n_n.rhsIdx i q 0).val = (q ⟨0, by decide⟩).val :=
  dot_S128x32_S32x4864_S128x4864_1_0_0_1_n_n.rhsIdx_val_of_single rfl i q
theorem mm3_rhs1 (i : S128x4864.Idx) (q : dot_S128x32_S32x4864_S128x4864_1_0_0_1_n_n.contr.Idx) :
    (dot_S128x32_S32x4864_S128x4864_1_0_0_1_n_n.rhsIdx i q 1).val = (i 1).val := by
  unfold DotDims.rhsIdx
  rw [dif_neg (show ¬(1 : Fin S32x4864.rank) ∈ dot_S128x32_S32x4864_S128x4864_1_0_0_1_n_n.rhsBatch by decide), dif_pos (show (1 : Fin S32x4864.rank) ∈ dot_S128x32_S32x4864_S128x4864_1_0_0_1_n_n.rhsNonContracting by decide)]
  rfl

/-- The product into the zero accumulator, read at row `r` and column `c`: the sum over the 32 contraction
    positions of the left operand's row times the right operand's column. -/
theorem mm3_apply {φ₁ φ₂ : FTy} (x : FVec Ideal S128x32 φ₁) (y : FVec Ideal S32x4864 φ₂) (r : Fin 128) (c : Fin 4864) :
    matmul dot_S128x32_S32x4864_S128x4864_1_0_0_1_n_n none x y (constant S128x4864 .f32 0x00000000#32) (ix2 r c)
      = ∑ k : Fin 32, (x (ix2 r k) : EReal) * (y (ix2 k c) : EReal) := by
  refine (Ideal.matmul_constant_zero_apply dot_S128x32_S32x4864_S128x4864_1_0_0_1_n_n none x y (ix2 r c)).trans ?_
  rw [← Equiv.sum_comp (contrEquiv1 dot_S128x32_S32x4864_S128x4864_1_0_0_1_n_n 32 rfl rfl).symm]
  refine Finset.sum_congr rfl fun k _ => ?_
  have hk := contrEquiv1_symm_val dot_S128x32_S32x4864_S128x4864_1_0_0_1_n_n 32 rfl rfl k
  have el : dot_S128x32_S32x4864_S128x4864_1_0_0_1_n_n.lhsIdx (ix2 r c) ((contrEquiv1 dot_S128x32_S32x4864_S128x4864_1_0_0_1_n_n 32 rfl rfl).symm k) = ix2 r k := funext fun a => Fin.ext (by
    match a with
    | ⟨0, _⟩ => exact mm3_lhs0 _ _
    | ⟨1, _⟩ => exact (mm3_lhs1 _ _).trans hk)
  have er : dot_S128x32_S32x4864_S128x4864_1_0_0_1_n_n.rhsIdx (ix2 r c) ((contrEquiv1 dot_S128x32_S32x4864_S128x4864_1_0_0_1_n_n 32 rfl rfl).symm k) = ix2 k c := funext fun a => Fin.ext (by
    match a with
    | ⟨0, _⟩ => exact (mm3_rhs0 _ _).trans hk
    | ⟨1, _⟩ => exact mm3_rhs1 _ _)
  rw [el, er]

/-! ### The batched product of a block: per edge, a 16 × 304 matrix times a 304 × 9 matrix -/

theorem mm4_lhs0 (i : S128x16x9.Idx) (q : dot_S128x16x304_S128x304x9_S128x16x9_2_1_1_2_0_0.contr.Idx) :
    (dot_S128x16x304_S128x304x9_S128x16x9_2_1_1_2_0_0.lhsIdx i q 0).val = (i 0).val := by
  unfold DotDims.lhsIdx
  rw [dif_pos (show (0 : Fin S128x16x304.rank) ∈ dot_S128x16x304_S128x304x9_S128x16x9_2_1_1_2_0_0.lhsBatch by decide)]
  rfl
theorem mm4_lhs1 (i : S128x16x9.Idx) (q : dot_S128x16x304_S128x304x9_S128x16x9_2_1_1_2_0_0.contr.Idx) :
    (dot_S128x16x304_S128x304x9_S128x16x9_2_1_1_2_0_0.lhsIdx i q 1).val = (i 1).val := by
  unfold DotDims.lhsIdx
  rw [dif_neg (show ¬(1 : Fin S128x16x304.rank) ∈ dot_S128x16x304_S128x304x9_S128x16x9_2_1_1_2_0_0.lhsBatch by decide), dif_pos (show (1 : Fin S128x16x304.rank) ∈ dot_S128x16x304_S128x304x9_S128x16x9_2_1_1_2_0_0.lhsNonContracting by decide)]
  rfl
theorem mm4_lhs2 (i : S128x16x9.Idx) (q : dot_S128x16x304_S128x304x9_S128x16x9_2_1_1_2_0_0.contr.Idx) :
    (dot_S128x16x304_S128x304x9_S128x16x9_2_1_1_2_0_0.lhsIdx i q 2).val = (q ⟨0, by decide⟩).val :=
  dot_S128x16x304_S128x304x9_S128x16x9_2_1_1_2_0_0.lhsIdx_val_of_single rfl i q
theorem mm4_rhs0 (i : S128x16x9.Idx) (q : dot_S128x16x304_S128x304x9_S128x16x9_2_1_1_2_0_0.contr.Idx) :
    (dot_S128x16x304_S128x304x9_S128x16x9_2_1_1_2_0_0.rhsIdx i q 0).val = (i 0).val := by
  unfold DotDims.rhsIdx
  rw [dif_pos (show (0 : Fin S128x304x9.rank) ∈ dot_S128x16x304_S128x304x9_S128x16x9_2_1_1_2_0_0.rhsBatch by decide)]
  rfl
theorem mm4_rhs1 (i : S128x16x9.Idx) (q : dot_S128x16x304_S128x304x9_S128x16x9_2_1_1_2_0_0.contr.Idx) :
    (dot_S128x16x304_S128x304x9_S128x16x9_2_1_1_2_0_0.rhsIdx i q 1).val = (q ⟨0, by decide⟩).val :=
  dot_S128x16x304_S128x304x9_S128x16x9_2_1_1_2_0_0.rhsIdx_val_of_single rfl i q
theorem mm4_rhs2 (i : S128x16x9.Idx) (q : dot_S128x16x304_S128x304x9_S128x16x9_2_1_1_2_0_0.contr.Idx) :
    (dot_S128x16x304_S128x304x9_S128x16x9_2_1_1_2_0_0.rhsIdx i q 2).val = (i 2).val := by
  unfold DotDims.rhsIdx
  rw [dif_neg (show ¬(2 : Fin S128x304x9.rank) ∈ dot_S128x16x304_S128x304x9_S128x16x9_2_1_1_2_0_0.rhsBatch by decide), dif_pos (show (2 : Fin S128x304x9.rank) ∈ dot_S128x16x304_S128x304x9_S128x16x9_2_1_1_2_0_0.rhsNonContracting by decide)]
  rfl

/-- The batched product into the zero accumulator, read at edge `e`, row `i` and column `q`: the sum over the 304
    contraction positions of the edge's left matrix row times the edge's right matrix column. -/
theorem mm4_apply {φ₁ φ₂ : FTy} (x : FVec Ideal S128x16x304 φ₁) (y : FVec Ideal S128x304x9 φ₂) (e : Fin 128) (i : Fin 16) (q : Fin 9) :
    matmul dot_S128x16x304_S128x304x9_S128x16x9_2_1_1_2_0_0 none x y (constant S128x16x9 .f32 0x00000000#32) (ix3 e i q)
      = ∑ j : Fin 304, (x (ix3 e i j) : EReal) * (y (ix3 e j q) : EReal) := by
  refine (Ideal.matmul_constant_zero_apply dot_S128x16x304_S128x304x9_S128x16x9_2_1_1_2_0_0 none x y (ix3 e i q)).trans ?_
  rw [← Equiv.sum_comp (contrEquiv1 dot_S128x16x304_S128x304x9_S128x16x9_2_1_1_2_0_0 304 rfl rfl).symm]
  refine Finset.sum_congr rfl fun k _ => ?_
  have hk := contrEquiv1_symm_val dot_S128x16x304_S128x304x9_S128x16x9_2_1_1_2_0_0 304 rfl rfl k
  have el : dot_S128x16x304_S128x304x9_S128x16x9_2_1_1_2_0_0.lhsIdx (ix3 e i q) ((contrEquiv1 dot_S128x16x304_S128x304x9_S128x16x9_2_1_1_2_0_0 304 rfl rfl).symm k) = ix3 e i k := funext fun a => Fin.ext (by
    match a with
    | ⟨0, _⟩ => exact mm4_lhs0 _ _
    | ⟨1, _⟩ => exact mm4_lhs1 _ _
    | ⟨2, _⟩ => exact (mm4_lhs2 _ _).trans hk)
  have er : dot_S128x16x304_S128x304x9_S128x16x9_2_1_1_2_0_0.rhsIdx (ix3 e i q) ((contrEquiv1 dot_S128x16x304_S128x304x9_S128x16x9_2_1_1_2_0_0 304 rfl rfl).symm k) = ix3 e k q := funext fun a => Fin.ext (by
    match a with
    | ⟨0, _⟩ => exact mm4_rhs0 _ _
    | ⟨1, _⟩ => exact (mm4_rhs1 _ _).trans hk
    | ⟨2, _⟩ => exact mm4_rhs2 _ _)
  rw [el, er]

/-! ### The stages of the body, one definition per layer

Every rounding to the narrow format is the identity at the ideal values; the rectifier's zero is the word both programs
compare with. -/

/-- A rectified sum with a bias row cast to one row and broadcast over the block, read at edge `e` and unit `j`. -/
theorem relu_bias_apply (m : FVec Ideal S128x32 .f32) (b : FVec Ideal S32 .f32) (hc : S32.ShapeCasts S1x32)
    (hb : S1x32.Broadcasts S128x32) (e : Fin 128) (j : Fin 32) :
    maximumf (addf m (broadcastTo S128x32 (shapeCast S1x32 b hc) hb))
        (broadcast S128x32 (Scalar.ofBits (F := Ideal) .f32 0x00000000#32)) (ix2 e j)
      = max ((m (ix2 e j) : EReal) + (b (ix1 j) : EReal)) Cert.Radial.zero := by
  refine (maximumf_apply _ _ _).trans ?_
  refine congrArg₂ max ?_ rfl
  refine (addf_apply _ _ _).trans ?_
  refine congrArg ((m (ix2 e j) : EReal) + ·) ?_
  refine (broadcastTo_1b_ab_apply _ hb e j).trans ?_
  exact shapeCast_a_1a_apply b hc 0 j

/-- The first hidden layer of a block of 128 edges. -/
def hv1 (ef : Vec Ideal S128x2 .f32) (w1 : Vec Ideal S2x32 .f32) (b1 : Vec Ideal S32 .f32) : FVec Ideal S128x32 .f32 :=
  maximumf
    (addf (matmul dot_S128x2_S2x32_S128x32_1_0_0_1_n_n none (truncf .bf16 ef Facts₀.bitsLt_bf16_f32) (truncf .bf16 w1 Facts₀.bitsLt_bf16_f32) (constant S128x32 .f32 0x00000000#32))
      (broadcastTo S128x32 (shapeCast S1x32 b1 Facts₀.shapeCasts_S32_S1x32) Facts₀.broadcasts_S1x32_S128x32))
    (broadcast S128x32 (Scalar.ofBits .f32 0x00000000#32))

/-- The second hidden layer of a block. -/
def hv2 (ef : Vec Ideal S128x2 .f32) (w1 : Vec Ideal S2x32 .f32) (b1 : Vec Ideal S32 .f32) (w2 : Vec Ideal S32x32 .f32)
    (b2 : Vec Ideal S32 .f32) : FVec Ideal S128x32 .f32 :=
  maximumf
    (addf (matmul dot_S128x32_S32x32_S128x32_1_0_0_1_n_n none (truncf .bf16 (hv1 ef w1 b1) Facts₀.bitsLt_bf16_f32) (truncf .bf16 w2 Facts₀.bitsLt_bf16_f32) (constant S128x32 .f32 0x00000000#32))
      (broadcastTo S128x32 (shapeCast S1x32 b2 Facts₀.shapeCasts_S32_S1x32) Facts₀.broadcasts_S1x32_S128x32))
    (broadcast S128x32 (Scalar.ofBits .f32 0x00000000#32))

/-- The flat radial weight rows of a block. -/
def rowv (ef : Vec Ideal S128x2 .f32) (w1 : Vec Ideal S2x32 .f32) (b1 : Vec Ideal S32 .f32) (w2 : Vec Ideal S32x32 .f32)
    (b2 : Vec Ideal S32 .f32) (w3 : Vec Ideal S32x4864 .f32) : FVec Ideal S128x4864 .f32 :=
  matmul dot_S128x32_S32x4864_S128x4864_1_0_0_1_n_n none (truncf .bf16 (hv2 ef w1 b1 w2 b2) Facts₀.bitsLt_bf16_f32) (truncf .bf16 w3 Facts₀.bitsLt_bf16_f32) (constant S128x4864 .f32 0x00000000#32)

/-- The body's stored value is the batched product of the reshaped weight rows with the block's contractions. -/
theorem k1_pay1_eq (ef : Vec Ideal S128x2 .f32) (t : Vec Ideal S128x304x9 .bf16) (w1 : Vec Ideal S2x32 .f32) (b1 : Vec Ideal S32 .f32)
    (w2 : Vec Ideal S32x32 .f32) (b2 : Vec Ideal S32 .f32) (w3 : Vec Ideal S32x4864 .f32) :
    k1_pay1 (F := Ideal) ef t w1 b1 w2 b2 w3
      = matmul (φ₁ := .bf16) (φ₂ := .bf16) dot_S128x16x304_S128x304x9_S128x16x9_2_1_1_2_0_0 none
          (truncf .bf16 (shapeCast S128x16x304 (rowv ef w1 b1 w2 b2 w3) Facts₀.shapeCasts_S128x4864_S128x16x304) Facts₀.bitsLt_bf16_f32)
          (shapeCast S128x304x9 t Facts₀.shapeCasts_S128x304x9_S128x304x9) (constant S128x16x9 .f32 0x00000000#32) := rfl

/-- The first hidden layer at edge `e`, unit `j`. -/
theorem hv1_apply (ef : Vec Ideal S128x2 .f32) (w1 : Vec Ideal S2x32 .f32) (b1 : Vec Ideal S32 .f32) (e : Fin 128) (j : Fin 32) :
    hv1 ef w1 b1 (ix2 e j) = Cert.Radial.hid1 (fun k => ef (ix2 e k)) w1 b1 j := by
  unfold hv1
  refine (relu_bias_apply _ b1 _ _ e j).trans ?_
  show _ = max ((∑ k : Fin 2, (ef (ix2 e k) : EReal) * (w1 (ix2 k j) : EReal)) + (b1 (ix1 j) : EReal)) Cert.Radial.zero
  refine congrArg (fun s : EReal => max (s + (b1 (ix1 j) : EReal)) Cert.Radial.zero) ?_
  exact mm1_apply _ _ e j

/-- The second hidden layer at edge `e`, unit `j`. -/
theorem hv2_apply (ef : Vec Ideal S128x2 .f32) (w1 : Vec Ideal S2x32 .f32) (b1 : Vec Ideal S32 .f32) (w2 : Vec Ideal S32x32 .f32)
    (b2 : Vec Ideal S32 .f32) (e : Fin 128) (j : Fin 32) :
    hv2 ef w1 b1 w2 b2 (ix2 e j) = Cert.Radial.hid2 (fun k => ef (ix2 e k)) w1 b1 w2 b2 j := by
  unfold hv2
  refine (relu_bias_apply _ b2 _ _ e j).trans ?_
  show _ = max ((∑ k : Fin 32, Cert.Radial.hid1 (fun k => ef (ix2 e k)) w1 b1 k * (w2 (ix2 k j) : EReal)) + (b2 (ix1 j) : EReal)) Cert.Radial.zero
  refine congrArg (fun s : EReal => max (s + (b2 (ix1 j) : EReal)) Cert.Radial.zero) ?_
  refine (mm2_apply _ _ e j).trans ?_
  refine Finset.sum_congr rfl fun k _ => ?_
  exact congrArg (· * (w2 (ix2 k j) : EReal)) (hv1_apply ef w1 b1 e k)

/-- The flat weight row of edge `e` at column `n`. -/
theorem rowv_apply (ef : Vec Ideal S128x2 .f32) (w1 : Vec Ideal S2x32 .f32) (b1 : Vec Ideal S32 .f32) (w2 : Vec Ideal S32x32 .f32)
    (b2 : Vec Ideal S32 .f32) (w3 : Vec Ideal S32x4864 .f32) (e : Fin 128) (n : Fin 4864) :
    rowv ef w1 b1 w2 b2 w3 (ix2 e n) = Cert.Radial.rwf (fun k => ef (ix2 e k)) w1 b1 w2 b2 w3 n := by
  unfold rowv
  refine (mm3_apply _ _ e n).trans ?_
  show _ = ∑ k : Fin 32, Cert.Radial.hid2 (fun k => ef (ix2 e k)) w1 b1 w2 b2 k * (w3 (ix2 k n) : EReal)
  refine Finset.sum_congr rfl fun k _ => ?_
  exact congrArg (· * (w3 (ix2 k n) : EReal)) (hv2_apply ef w1 b1 w2 b2 e k)

/-- The flat rows read as 16 × 304 matrices: entry `(e, i, j)` is the flat entry `(e, i * 304 + j)`. -/
theorem reshape_apply {α : Type} (x : S128x4864.Idx → α) (h : S128x4864.ShapeCasts S128x16x304) (e : Fin 128) (i : Fin 16)
    (j : Fin 304) : shapeCast S128x16x304 x h (ix3 e i j) = x (ix2 e (Cert.Radial.col i j)) :=
  shapeCast_apply x h _ _ (by
    rw [Shape.rowMajor_val_two, Shape.rowMajor_val_three]
    show e.val * 4864 + (i.val * 304 + j.val) = (e.val * 16 + i.val) * 304 + j.val
    omega)

/-- A block of 128 edges: entry (e, i, q) of the body's stored value is the sum over the 304 contraction positions of the edge's radial weight (i, j) times the edge's reshaped contraction (j, q). -/
theorem final_apply (ef : Vec Ideal S128x2 .f32) (t : Vec Ideal S128x304x9 .bf16) (w1 : Vec Ideal S2x32 .f32) (b1 : Vec Ideal S32 .f32) (w2 : Vec Ideal S32x32 .f32) (b2 : Vec Ideal S32 .f32) (w3 : Vec Ideal S32x4864 .f32) (e : Fin 128) (i : Fin 16) (q : Fin 9) :
    k1_pay1 (F := Ideal) ef t w1 b1 w2 b2 w3 (ix3 e i q) = ∑ j : Fin 304, Cert.Radial.rwf (fun k => ef (ix2 e k)) w1 b1 w2 b2 w3 (Cert.Radial.col i j) * t (ix3 e j q) := by
  refine (congrFun (k1_pay1_eq ef t w1 b1 w2 b2 w3) (ix3 e i q)).trans ?_
  refine (mm4_apply _ _ e i q).trans ?_
  refine Finset.sum_congr rfl fun j _ => ?_
  refine congrArg₂ (· * ·) ?_ ?_
  · exact (reshape_apply _ _ e i j).trans (rowv_apply ef w1 b1 w2 b2 w3 e (Cert.Radial.col i j))
  · exact congrFun (shapeCast_self t _) (ix3 e j q)

end Cert.FinalBody
end
-- ==== Proof.Region1Value.lean ====
/-
  Region 1's output array after the region, as one function of the arrays the region found.

  The region walks 256 points; point t stages edges 128·t … 128·t+127 of the edge features, of the reshaped contraction and of
  the output, and the five weight arrays whole.  Its body stores, over its whole output block, the per-edge product of the
  radial weight matrix with the reshaped contraction.  Every block read is the array read at the block's place, so what a point
  writes back is its block of ONE whole-array function (finalProd); the 256 blocks tile the output array, so the array ends
  holding that function.
-/
import proofs.«120871_j74406013435996_2_alg».proof.Proof.KernelIdealData
import proofs.«120871_j74406013435996_2_alg».proof.Proof.FinalBody
import proofs.«120871_j74406013435996_2_alg».proof.Proof.RadialSpec
import Idealize.ShloMosaic.Lib.Pipeline.Value
import Idealize.ShloMosaic.Lib.ValueIdx
set_option maxRecDepth 16384
noncomputable section
namespace Cert.KernelIdeal.Val1
open Cert.KernelIdeal Cert.KernelIdeal.Gen Cert.KernelIdeal.Fr Idealize.ShloMosaic Idealize.ShloMosaic.TcCoe Idealize.ShloMosaic.ValueIdx Idealize.SL.Sem
open Idealize.ShloMosaic.Pipeline (Dat)

/-- The per-edge final product of whole arrays: entry (E, i, q) is the sum over the 304 contraction positions of edge E's radial weight (i, j) times its reshaped contraction (j, q). -/
def finalProd (ef : S32768x2.Idx → EReal) (t : S32768x304x9.Idx → EReal) (w1 : S2x32.Idx → EReal) (b1 : S32.Idx → EReal)
    (w2 : S32x32.Idx → EReal) (b2 : S32.Idx → EReal) (w3 : S32x4864.Idx → EReal) : S32768x16x9.Idx → EReal :=
  fun x => ∑ j : Fin 304, Cert.Radial.rwf (fun k => ef (ix2 (n0 := 32768) (n1 := 2) (x 0) k)) w1 b1 w2 b2 w3 (Cert.Radial.col (x 1) j)
    * t (ix3 (n0 := 32768) (n1 := 304) (n2 := 9) (x 0) j (x 2))

theorem finalProd_apply (ef : S32768x2.Idx → EReal) (t : S32768x304x9.Idx → EReal) (w1 : S2x32.Idx → EReal) (b1 : S32.Idx → EReal)
    (w2 : S32x32.Idx → EReal) (b2 : S32.Idx → EReal) (w3 : S32x4864.Idx → EReal) (E : Fin 32768) (i : Fin 16) (q : Fin 9) :
    finalProd ef t w1 b1 w2 b2 w3 (ix3 E i q) = ∑ j : Fin 304, Cert.Radial.rwf (fun k => ef (ix2 E k)) w1 b1 w2 b2 w3 (Cert.Radial.col i j) * t (ix3 E j q) := rfl

/-! ## One point: the body's value of blocks that are the arrays read at the block's place -/

/-- If the staged edge-feature and contraction blocks are the arrays read 128·T edges further on, the body's value at
    block entry (e, i, q) is the whole-array product at (128·T + e, i, q). -/
theorem point_eq (ef : S32768x2.Idx → EReal) (tt : S32768x304x9.Idx → EReal) (w1 : S2x32.Idx → EReal) (b1 : S32.Idx → EReal)
    (w2 : S32x32.Idx → EReal) (b2 : S32.Idx → EReal) (w3 : S32x4864.Idx → EReal)
    (x0 : Vec Ideal S128x2 .f32) (x1 : Vec Ideal S128x304x9 .bf16) (T : Nat)
    (h0 : ∀ (e : Fin 128) (k : Fin 2) (E : Fin 32768), E.val = T * 128 + e.val → x0 (ix2 e k) = ef (ix2 E k))
    (h1 : ∀ (e : Fin 128) (j : Fin 304) (q : Fin 9) (E : Fin 32768), E.val = T * 128 + e.val → x1 (ix3 e j q) = tt (ix3 E j q))
    (e : Fin 128) (i : Fin 16) (q : Fin 9) (E : Fin 32768) (hE : E.val = T * 128 + e.val) :
    k1_pay1 (F := Ideal) x0 x1 w1 b1 w2 b2 w3 (ix3 e i q) = finalProd ef tt w1 b1 w2 b2 w3 (ix3 E i q) := by
  refine (Cert.FinalBody.final_apply x0 x1 w1 b1 w2 b2 w3 e i q).trans ?_
  refine ((finalProd_apply ef tt w1 b1 w2 b2 w3 E i q).trans ?_).symm
  have hef : (fun k : Fin 2 => ef (ix2 E k)) = fun k : Fin 2 => x0 (ix2 e k) := funext fun k => (h0 e k E hE).symm
  rw [hef]
  refine Finset.sum_congr rfl fun j _ => ?_
  rw [h1 e j q E hE]

/-! ## The printed index maps, decided once over the grid -/

variable (V : (c : Dev nD) → (b : Ref sig .tc) → Buf (Elt Ideal) ((c : Thread nD τ).loc b))

theorem zeros1 : (![0] : Fin 1 → Nat) = fun _ => 0 := funext fun a => by fin_cases a <;> rfl
theorem zeros2 : (![0, 0] : Fin 2 → Nat) = fun _ => 0 := funext fun a => by fin_cases a <;> rfl
theorem zeros3 : (![0, 0, 0] : Fin 3 → Nat) = fun _ => 0 := funext fun a => by fin_cases a <;> rfl

/-- At point t the edge features, the contraction and the output are at block t along the edge axis and block 0 along the
    others; each weight array is at block 0 along every axis. -/
theorem idx_facts : ∀ t : Fin cfg1.N,
    win1_0.index t (0 : Fin 2) = t.val ∧ win1_0.index t (1 : Fin 2) = 0
    ∧ win1_1.index t (0 : Fin 3) = t.val ∧ win1_1.index t (1 : Fin 3) = 0 ∧ win1_1.index t (2 : Fin 3) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = 0 ∧ win1_6.index t (1 : Fin 2) = 0
    ∧ win1_7.index t (0 : Fin 3) = t.val ∧ win1_7.index t (1 : Fin 3) = 0 ∧ win1_7.index t (2 : Fin 3) = 0 :=
  (by decide +kernel : ∀ t : Fin grid1.N, _)

/-! ## The weight blocks are the weight arrays -/

theorem wblk2 (c : Dev nD) (t : Fin cfg1.N) : iblk1 (F := Ideal) V c 2 t = V c main_arg5 := by
  obtain ⟨-, -, -, -, -, e0, e1, -⟩ := idx_facts t
  funext y
  show V c main_arg5 (((cfg1.win 2).blk t).view.emb y) = V c main_arg5 y
  refine congrArg _ ?_
  funext a; apply Fin.ext
  match a with
  | ⟨0, _⟩ => show win1_2.index t (0 : Fin 2) * 2 + 1 * (y 0).val = (y 0).val; omega
  | ⟨1, _⟩ => show win1_2.index t (1 : Fin 2) * 32 + 1 * (y 1).val = (y 1).val; omega

theorem wblk3 (c : Dev nD) (t : Fin cfg1.N) : iblk1 (F := Ideal) V c 3 t = V c main_arg6 := by
  obtain ⟨-, -, -, -, -, -, -, e0, -⟩ := idx_facts t
  funext y
  show V c main_arg6 (((cfg1.win 3).blk t).view.emb y) = V c main_arg6 y
  refine congrArg _ ?_
  funext a; apply Fin.ext
  match a with
  | ⟨0, _⟩ => show win1_3.index t (0 : Fin 1) * 32 + 1 * (y 0).val = (y 0).val; omega

theorem wblk4 (c : Dev nD) (t : Fin cfg1.N) : iblk1 (F := Ideal) V c 4 t = V c main_arg7 := by
  obtain ⟨-, -, -, -, -, -, -, -, e0, e1, -⟩ := idx_facts t
  funext y
  show V c main_arg7 (((cfg1.win 4).blk t).view.emb y) = V c main_arg7 y
  refine congrArg _ ?_
  funext a; apply Fin.ext
  match a with
  | ⟨0, _⟩ => show win1_4.index t (0 : Fin 2) * 32 + 1 * (y 0).val = (y 0).val; omega
  | ⟨1, _⟩ => show win1_4.index t (1 : Fin 2) * 32 + 1 * (y 1).val = (y 1).val; omega

theorem wblk5 (c : Dev nD) (t : Fin cfg1.N) : iblk1 (F := Ideal) V c 5 t = V c main_arg8 := by
  obtain ⟨-, -, -, -, -, -, -, -, -, -, e0, -⟩ := idx_facts t
  funext y
  show V c main_arg8 (((cfg1.win 5).blk t).view.emb y) = V c main_arg8 y
  refine congrArg _ ?_
  funext a; apply Fin.ext
  match a with
  | ⟨0, _⟩ => show win1_5.index t (0 : Fin 1) * 32 + 1 * (y 0).val = (y 0).val; omega

theorem wblk6 (c : Dev nD) (t : Fin cfg1.N) : iblk1 (F := Ideal) V c 6 t = V c main_arg9 := by
  obtain ⟨-, -, -, -, -, -, -, -, -, -, -, e0, e1, -⟩ := idx_facts t
  funext y
  show V c main_arg9 (((cfg1.win 6).blk t).view.emb y) = V c main_arg9 y
  refine congrArg _ ?_
  funext a; apply Fin.ext
  match a with
  | ⟨0, _⟩ => show win1_6.index t (0 : Fin 2) * 32 + 1 * (y 0).val = (y 0).val; omega
  | ⟨1, _⟩ => show win1_6.index t (1 : Fin 2) * 4864 + 1 * (y 1).val = (y 1).val; omega

/-! ## The edge blocks are the arrays read 128·t edges further on -/

theorem eblk0 (c : Dev nD) (t : Fin cfg1.N) (e : Fin 128) (k : Fin 2) (E : Fin 32768) (hE : E.val = t.val * 128 + e.val) :
    iblk1 (F := Ideal) V c 0 t (ix2 e k) = V c main_arg3 (ix2 E k) := by
  obtain ⟨e0, e1, -⟩ := idx_facts t
  show V c main_arg3 (((cfg1.win 0).blk t).view.emb (ix2 e k)) = V c main_arg3 (ix2 E k)
  refine congrArg _ ?_
  funext a; apply Fin.ext
  match a with
  | ⟨0, _⟩ => show win1_0.index t (0 : Fin 2) * 128 + 1 * e.val = E.val; omega
  | ⟨1, _⟩ => show win1_0.index t (1 : Fin 2) * 2 + 1 * k.val = k.val; omega

theorem eblk1 (c : Dev nD) (t : Fin cfg1.N) (e : Fin 128) (j : Fin 304) (q : Fin 9) (E : Fin 32768) (hE : E.val = t.val * 128 + e.val) :
    iblk1 (F := Ideal) V c 1 t (ix3 e j q) = V c main_v24 (ix3 E j q) := by
  obtain ⟨-, -, e0, e1, e2, -⟩ := idx_facts t
  show V c main_v24 (((cfg1.win 1).blk t).view.emb (ix3 e j q)) = V c main_v24 (ix3 E j q)
  refine congrArg _ ?_
  funext a; apply Fin.ext
  match a with
  | ⟨0, _⟩ => show win1_1.index t (0 : Fin 3) * 128 + 1 * e.val = E.val; omega
  | ⟨1, _⟩ => show win1_1.index t (1 : Fin 3) * 304 + 1 * j.val = j.val; omega
  | ⟨2, _⟩ => show win1_1.index t (2 : Fin 3) * 9 + 1 * q.val = q.val; omega

/-! ## What a point writes back -/

/-- The output block's entry y sits in the array at edge 128·t + y₀. -/
theorem oblk7 (t : Fin cfg1.N) (y : S128x16x9.Idx) (E : Fin 32768) (hE : E.val = t.val * 128 + (y 0).val) :
    ((cfg1.win 7).blk t).view.emb y = ix3 E (y 1) (y 2) := by
  obtain ⟨-, -, -, -, -, -, -, -, -, -, -, -, -, e0, e1, e2⟩ := idx_facts t
  funext a; apply Fin.ext
  match a with
  | ⟨0, _⟩ => show win1_7.index t (0 : Fin 3) * 128 + 1 * (y 0).val = E.val; omega
  | ⟨1, _⟩ => show win1_7.index t (1 : Fin 3) * 16 + 1 * (y 1).val = (y 1).val; omega
  | ⟨2, _⟩ => show win1_7.index t (2 : Fin 3) * 9 + 1 * (y 2).val = (y 2).val; omega

/-- WHAT POINT t WRITES BACK is block t of the final product of the arrays as the region finds them. -/
theorem flushed7_eq (c : Dev nD) (t : Fin cfg1.N) :
    (dat1 (F := Ideal) V c).flushed 7 t = ((cfg1.win 7).blk t).view.read (Elt Ideal)
      (finalProd (V c main_arg3) (V c main_v24) (V c main_arg5) (V c main_arg6) (V c main_arg7) (V c main_arg8) (V c main_arg9)) := by
  show (cfg1.win 7).cut (grid1.coords t) ((dat1 (F := Ideal) V c).after 7 t) = _
  rw [after1_7]
  unfold out1_7
  rw [View.canon_unit_zero zeros3]
  simp only [View.ld_unit_zero (S := S128x2) zeros2, View.ld_unit_zero (S := S128x304x9) zeros3, View.ld_unit_zero (S := S2x32) zeros2,
    View.ld_unit_zero (S := S32) zeros1, View.ld_unit_zero (S := S32x32) zeros2, View.ld_unit_zero (S := S32x4864) zeros2]
  rw [wblk2 V c t, wblk3 V c t, wblk4 V c t, wblk5 V c t, wblk6 V c t]
  funext y
  have ht : t.val < 256 := t.isLt.trans_eq N_1
  have hy : (y 0).val < 128 := (y 0).isLt
  show k1_pay1 (F := Ideal) (iblk1 (F := Ideal) V c 0 t) (iblk1 (F := Ideal) V c 1 t) (V c main_arg5) (V c main_arg6) (V c main_arg7) (V c main_arg8) (V c main_arg9) y
    = finalProd (V c main_arg3) (V c main_v24) (V c main_arg5) (V c main_arg6) (V c main_arg7) (V c main_arg8) (V c main_arg9) (((cfg1.win 7).blk t).view.emb y)
  rw [oblk7 t y ⟨t.val * 128 + (y 0).val, by omega⟩ rfl]
  refine (congrArg _ (eq_ix3 y)).trans ?_
  exact point_eq _ _ _ _ _ _ _ _ _ t.val (fun e k E hE => eblk0 V c t e k E hE) (fun e j q E hE => eblk1 V c t e j q E hE)
    (y 0) (y 1) (y 2) _ rfl

/-! ## The blocks tile the array -/

/-- An index of the array is in point t's block iff each coordinate is in the block's range on its axis. -/
theorem mem_blk7 (t : Fin cfg1.N) (i : S32768x16x9.Idx) :
    i ∈ ((cfg1.win 7).blk t).view.set ↔ ∀ a : Fin 3, win1_7.index t a * S128x16x9.size a ≤ (i a).val ∧ (i a).val < win1_7.index t a * S128x16x9.size a + S128x16x9.size a := by
  show i ∈ ((View.whole main_v25).slice (win1_7.rect t)).set ↔ _
  rw [View.set_slice_whole, Rect.mem_set_unit]
  exact Iff.rfl

/-- Edge E's row of the output is in the block of point E / 128. -/
theorem cover7 (i : S32768x16x9.Idx) : ∃ t : Fin cfg1.N, (cfg1.win 7).flush t = true ∧ i ∈ ((cfg1.win 7).blk t).view.set := by
  have hi0 : (i 0).val < 32768 := (i 0).isLt
  have hi1 : (i 1).val < 16 := (i 1).isLt
  have hi2 : (i 2).val < 9 := (i 2).isLt
  have hN : (i 0).val / 128 < cfg1.N := lt_of_lt_of_eq (by omega : (i 0).val / 128 < 256) N_1.symm
  obtain ⟨t, ht⟩ : ∃ t : Fin cfg1.N, t.val = (i 0).val / 128 := ⟨⟨_, hN⟩, rfl⟩
  refine ⟨t, flush1_7 t, ?_⟩
  rw [mem_blk7]
  obtain ⟨-, -, -, -, -, -, -, -, -, -, -, -, -, e0, e1, e2⟩ := idx_facts t
  intro a
  match a with
  | ⟨0, _⟩ => show win1_7.index t (0 : Fin 3) * 128 ≤ (i 0).val ∧ (i 0).val < win1_7.index t (0 : Fin 3) * 128 + 128; omega
  | ⟨1, _⟩ => show win1_7.index t (1 : Fin 3) * 16 ≤ (i 1).val ∧ (i 1).val < win1_7.index t (1 : Fin 3) * 16 + 16; omega
  | ⟨2, _⟩ => show win1_7.index t (2 : Fin 3) * 9 ≤ (i 2).val ∧ (i 2).val < win1_7.index t (2 : Fin 3) * 9 + 9; omega

/-- After region 1 its output array is the final product of the arrays as the region found them. -/
theorem region1_final (c : Dev nD) : (dat1 (F := Ideal) V c).arrAt 7 cfg1.N
    = finalProd (V c main_arg3) (V c main_v24) (V c main_arg5) (V c main_arg6) (V c main_arg7) (V c main_arg8) (V c main_arg9) :=
  (dat1 (F := Ideal) V c).arrAt_eq_of_cover 7 _ (fun t _ => flushed7_eq V c t) cover7

end Cert.KernelIdeal.Val1

end
-- ==== Proof.RefRead.lean ====
/-
  The reference program read at an index.

  Three facts about the reference, each an equation between one element of an intermediate array and a finite sum
  (or a closed formula) of elements of its operands:
  * the basis contraction: element (E, c, x) of the contracted array is the sum over k < 9 of the gathered features
    at (E, c, k) times the reshaped basis at (E, k, x);
  * the radial weights: element (E, i, j) of the reshaped three-layer perceptron output is the flat weight row of
    edge E at column i * 304 + j, where the row is the formula of the radial specification;
  * the per-edge product: element (E, i, q) of the result is the sum over j < 304 of the weight (E, i, j) times the
    reshaped contraction at (E, j, q).
  A dot product's element is the sum over the contraction index of the products of the operands' elements; the
  operands' indices are then written by their coordinates.  The reshape of the weight row sends (E, i, j) to row E,
  column i * 304 + j, because (E * 16 + i) * 304 + j = E * 4864 + (i * 304 + j) with i * 304 + j < 4864.
-/
import proofs.«120871_j74406013435996_2_alg».proof.Proof.Gen.ReferenceIdeal.Read
import proofs.«120871_j74406013435996_2_alg».proof.Proof.RadialSpec
noncomputable section
namespace Cert.RefRead
open Cert.ReferenceIdeal Cert.ReferenceIdeal.Read Idealize.ShloMosaic Idealize.ShloMosaic.ValueIdx

/-- basis contraction -/
theorem tmp_apply (x0 : (⟨S8192x16x1, .f32⟩ : BufTy).Contents (Elt Ideal)) (x1 : (⟨S8192x16x3, .f32⟩ : BufTy).Contents (Elt Ideal)) (x2 : (⟨S8192x16x5, .f32⟩ : BufTy).Contents (Elt Ideal)) (x4 : (⟨S32768x9x19x9, .f32⟩ : BufTy).Contents (Elt Ideal)) (x10 : (⟨S32768, .i32⟩ : BufTy).Contents (Elt Ideal)) (E : Fin 32768) (c : Fin 16) (x : Fin 171) :
    val_main_v35 (F := Ideal) x0 x1 x2 x4 x10 (ix3 E c x) = ∑ k : Fin 9, val_main_v21 (F := Ideal) x0 x1 x2 x10 (ix3 E c k) * val_main_v34 (F := Ideal) x4 (ix3 E k x) := by
  refine (val_main_v35_apply x0 x1 x2 x4 x10 (ix3 E c x)).trans ?_
  refine Finset.sum_congr rfl fun k _ => ?_
  have el : lidx_main_v35 (ix3 E c x) k = ix3 E c k := funext fun a => Fin.ext (by match a with | ⟨0, _⟩ => rfl | ⟨1, _⟩ => rfl | ⟨2, _⟩ => rfl)
  have er : ridx_main_v35 (ix3 E c x) k = ix3 E k x := funext fun a => Fin.ext (by match a with | ⟨0, _⟩ => rfl | ⟨1, _⟩ => rfl | ⟨2, _⟩ => rfl)
  rw [el, er]

/-- First hidden layer: the reference's rectified `ef · W1 + b1` at (E, j) is the specification's `hid1` of edge E. -/
private theorem h1_apply (x3 : (⟨S32768x2, .f32⟩ : BufTy).Contents (Elt Ideal)) (x5 : (⟨S2x32, .f32⟩ : BufTy).Contents (Elt Ideal)) (x6 : (⟨S32, .f32⟩ : BufTy).Contents (Elt Ideal)) (E : Fin 32768) (j : Fin 32) :
    val_main_v26 (F := Ideal) x3 x5 x6 (ix2 E j) = Cert.Radial.hid1 (fun k => x3 (ix2 E k)) x5 x6 j := by
  rw [val_main_v26_apply, val_main_v25_apply, val_main_v22_apply, val_main_v24_apply, val_main_v23_apply,
    val_main_call0_v0_apply, val_main_call0_cst_apply]
  unfold Cert.Radial.hid1
  rw [Ideal.maximumf_def, Ideal.addf_def, Ideal.ofBits_def]
  have eb : idx_main_v23 (idx_main_v24 (ix2 E j)) = ix1 j := funext fun a => Fin.ext (by match a with | ⟨0, _⟩ => rfl)
  rw [eb]
  refine congrArg (fun s => max (s + x6 (ix1 j)) Cert.Radial.zero) ?_
  refine Finset.sum_congr rfl fun k _ => ?_
  have el : lidx_main_v22 (ix2 E j) k = ix2 E k := funext fun a => Fin.ext (by match a with | ⟨0, _⟩ => rfl | ⟨1, _⟩ => rfl)
  have er : ridx_main_v22 (ix2 E j) k = ix2 k j := funext fun a => Fin.ext (by match a with | ⟨0, _⟩ => rfl | ⟨1, _⟩ => rfl)
  rw [el, er]

/-- Second hidden layer: the reference's rectified `h1 · W2 + b2` at (E, j) is the specification's `hid2` of edge E. -/
private theorem h2_apply (x3 : (⟨S32768x2, .f32⟩ : BufTy).Contents (Elt Ideal)) (x5 : (⟨S2x32, .f32⟩ : BufTy).Contents (Elt Ideal)) (x6 : (⟨S32, .f32⟩ : BufTy).Contents (Elt Ideal)) (x7 : (⟨S32x32, .f32⟩ : BufTy).Contents (Elt Ideal)) (x8 : (⟨S32, .f32⟩ : BufTy).Contents (Elt Ideal)) (E : Fin 32768) (j : Fin 32) :
    val_main_v31 (F := Ideal) x3 x5 x6 x7 x8 (ix2 E j) = Cert.Radial.hid2 (fun k => x3 (ix2 E k)) x5 x6 x7 x8 j := by
  rw [val_main_v31_apply, val_main_v30_apply, val_main_v27_apply, val_main_v29_apply, val_main_v28_apply,
    val_main_call1_v0_apply, val_main_call1_cst_apply]
  unfold Cert.Radial.hid2
  rw [Ideal.maximumf_def, Ideal.addf_def, Ideal.ofBits_def]
  have eb : idx_main_v28 (idx_main_v29 (ix2 E j)) = ix1 j := funext fun a => Fin.ext (by match a with | ⟨0, _⟩ => rfl)
  rw [eb]
  refine congrArg (fun s => max (s + x8 (ix1 j)) Cert.Radial.zero) ?_
  refine Finset.sum_congr rfl fun k _ => ?_
  have el : lidx_main_v27 (ix2 E j) k = ix2 E k := funext fun a => Fin.ext (by match a with | ⟨0, _⟩ => rfl | ⟨1, _⟩ => rfl)
  have er : ridx_main_v27 (ix2 E j) k = ix2 k j := funext fun a => Fin.ext (by match a with | ⟨0, _⟩ => rfl | ⟨1, _⟩ => rfl)
  rw [el, er, h1_apply]

/-- The flat weight row: the reference's `h2 · W3` at (E, n) is the specification's `rwf` of edge E at column n. -/
private theorem flat_apply (x3 : (⟨S32768x2, .f32⟩ : BufTy).Contents (Elt Ideal)) (x5 : (⟨S2x32, .f32⟩ : BufTy).Contents (Elt Ideal)) (x6 : (⟨S32, .f32⟩ : BufTy).Contents (Elt Ideal)) (x7 : (⟨S32x32, .f32⟩ : BufTy).Contents (Elt Ideal)) (x8 : (⟨S32, .f32⟩ : BufTy).Contents (Elt Ideal)) (x9 : (⟨S32x4864, .f32⟩ : BufTy).Contents (Elt Ideal)) (E : Fin 32768) (n : Fin 4864) :
    val_main_v32 (F := Ideal) x3 x5 x6 x7 x8 x9 (ix2 E n) = Cert.Radial.rwf (fun k => x3 (ix2 E k)) x5 x6 x7 x8 x9 n := by
  rw [val_main_v32_apply]
  unfold Cert.Radial.rwf
  refine Finset.sum_congr rfl fun k _ => ?_
  have el : lidx_main_v32 (ix2 E n) k = ix2 E k := funext fun a => Fin.ext (by match a with | ⟨0, _⟩ => rfl | ⟨1, _⟩ => rfl)
  have er : ridx_main_v32 (ix2 E n) k = ix2 k n := funext fun a => Fin.ext (by match a with | ⟨0, _⟩ => rfl | ⟨1, _⟩ => rfl)
  rw [el, er, h2_apply]

/-- the radial weights: the reference's reshaped h @ W3 at (E, i, j) is the edge's flat weight row at column i*304+j -/
theorem rw_apply (x3 : (⟨S32768x2, .f32⟩ : BufTy).Contents (Elt Ideal)) (x5 : (⟨S2x32, .f32⟩ : BufTy).Contents (Elt Ideal)) (x6 : (⟨S32, .f32⟩ : BufTy).Contents (Elt Ideal)) (x7 : (⟨S32x32, .f32⟩ : BufTy).Contents (Elt Ideal)) (x8 : (⟨S32, .f32⟩ : BufTy).Contents (Elt Ideal)) (x9 : (⟨S32x4864, .f32⟩ : BufTy).Contents (Elt Ideal)) (E : Fin 32768) (i : Fin 16) (j : Fin 304) :
    val_main_v33 (F := Ideal) x3 x5 x6 x7 x8 x9 (ix3 E i j) = Cert.Radial.rwf (fun k => x3 (ix2 E k)) x5 x6 x7 x8 x9 (Cert.Radial.col i j) := by
  rw [val_main_v33_apply]
  have hE : E.val < 32768 := E.isLt
  have hi : i.val < 16 := i.isLt
  have hj : j.val < 304 := j.isLt
  have e : idx_main_v33 (ix3 E i j) = ix2 E (Cert.Radial.col i j) := funext fun a => Fin.ext (by
    match a with
    | ⟨0, _⟩ => show ((E.val * 16 + i.val) * 304 + j.val) / 4864 = E.val; omega
    | ⟨1, _⟩ => show ((E.val * 16 + i.val) * 304 + j.val) % 4864 = i.val * 304 + j.val; omega)
  rw [e, flat_apply]

/-- the final per-edge product -/
theorem out_apply (x0 : (⟨S8192x16x1, .f32⟩ : BufTy).Contents (Elt Ideal)) (x1 : (⟨S8192x16x3, .f32⟩ : BufTy).Contents (Elt Ideal)) (x2 : (⟨S8192x16x5, .f32⟩ : BufTy).Contents (Elt Ideal)) (x3 : (⟨S32768x2, .f32⟩ : BufTy).Contents (Elt Ideal)) (x4 : (⟨S32768x9x19x9, .f32⟩ : BufTy).Contents (Elt Ideal)) (x5 : (⟨S2x32, .f32⟩ : BufTy).Contents (Elt Ideal)) (x6 : (⟨S32, .f32⟩ : BufTy).Contents (Elt Ideal)) (x7 : (⟨S32x32, .f32⟩ : BufTy).Contents (Elt Ideal)) (x8 : (⟨S32, .f32⟩ : BufTy).Contents (Elt Ideal)) (x9 : (⟨S32x4864, .f32⟩ : BufTy).Contents (Elt Ideal)) (x10 : (⟨S32768, .i32⟩ : BufTy).Contents (Elt Ideal)) (E : Fin 32768) (i : Fin 16) (q : Fin 9) :
    val_main_v37 (F := Ideal) x0 x1 x2 x3 x4 x5 x6 x7 x8 x9 x10 (ix3 E i q) = ∑ j : Fin 304, val_main_v33 (F := Ideal) x3 x5 x6 x7 x8 x9 (ix3 E i j) * val_main_v36 (F := Ideal) x0 x1 x2 x4 x10 (ix3 E j q) := by
  refine (val_main_v37_apply x0 x1 x2 x3 x4 x5 x6 x7 x8 x9 x10 (ix3 E i q)).trans ?_
  refine Finset.sum_congr rfl fun k _ => ?_
  have el : lidx_main_v37 (ix3 E i q) k = ix3 E i k := funext fun a => Fin.ext (by match a with | ⟨0, _⟩ => rfl | ⟨1, _⟩ => rfl | ⟨2, _⟩ => rfl)
  have er : ridx_main_v37 (ix3 E i q) k = ix3 E k q := funext fun a => Fin.ext (by match a with | ⟨0, _⟩ => rfl | ⟨1, _⟩ => rfl | ⟨2, _⟩ => rfl)
  rw [el, er]

end Cert.RefRead

end
-- ==== Proof.KernelBridge.lean ====
/-
  The idealized kernel program's three results are the reference's.

  Both programs gather and join the same features, reshape the same basis, and pool and slice with the same
  operations; between those they differ only in how the per-edge product is scheduled.  Region 0 leaves in its output
  array the contraction over the 9 fused degrees of the features with the basis — the reference's first batched
  product, entry by entry.  Region 1 leaves the sum over the 304 contraction positions of the radial weights (the
  three-layer perceptron's flat row, read as a 16 × 304 matrix) times the reshaped contraction — the reference's
  second batched product, entry by entry, the reference's reshaped perceptron output being the same flat row.  Every
  sum is the same finite sum of the same products, so no property of the extended reals beyond reading both sides at
  an index is used.
-/
import proofs.«120871_j74406013435996_2_alg».proof.Proof.KernelHostValues
import proofs.«120871_j74406013435996_2_alg».proof.Proof.Region0Value
import proofs.«120871_j74406013435996_2_alg».proof.Proof.Region1Value
import proofs.«120871_j74406013435996_2_alg».proof.Proof.RefRead

set_option maxRecDepth 16384

noncomputable section

namespace Cert.KernelIdeal.Bridge

open Cert.KernelIdeal Cert.KernelIdeal.Gen Cert.KernelIdeal.Fr
open Idealize.ShloMosaic Idealize.ShloMosaic.TcCoe Idealize.SL.Sem Idealize.ShloMosaic.ValueIdx
open Cert.ReferenceIdeal.Read (val_main_v21 val_main_v34 val_main_v35 val_main_v36 val_main_v37 val_main_v41 val_main_v42 val_main_v43)

/-- The contraction of the reference's features with its reshaped basis is its first batched product. -/
theorem contract_ref (x0 x1 x2 x4 x10) :
    Val0.contract (val_main_v21 (F := Ideal) x0 x1 x2 x10) (val_main_v34 (F := Ideal) x4) = val_main_v35 (F := Ideal) x0 x1 x2 x4 x10 := by
  funext i
  obtain ⟨E, c', x, rfl⟩ : ∃ (E : Fin 32768) (c' : Fin 16) (x : Fin 171), i = ix3 E c' x := ⟨i 0, i 1, i 2, eq_ix3 i⟩
  exact (Val0.contract_apply _ _ E c' x).trans (Cert.RefRead.tmp_apply x0 x1 x2 x4 x10 E c' x).symm

/-- The final product of the edge features, the reshaped first product and the weights is the reference's second batched
    product. -/
theorem final_ref (x0 x1 x2 x3 x4 x5 x6 x7 x8 x9 x10) :
    Val1.finalProd x3 (shapeCast S32768x304x9 (val_main_v35 (F := Ideal) x0 x1 x2 x4 x10) shapeCasts_S32768x16x171_S32768x304x9) x5 x6 x7 x8 x9
      = val_main_v37 (F := Ideal) x0 x1 x2 x3 x4 x5 x6 x7 x8 x9 x10 := by
  funext i
  obtain ⟨E, i', q, rfl⟩ : ∃ (E : Fin 32768) (i' : Fin 16) (q : Fin 9), i = ix3 E i' q := ⟨i 0, i 1, i 2, eq_ix3 i⟩
  refine (Val1.finalProd_apply _ _ _ _ _ _ _ E i' q).trans ((Cert.RefRead.out_apply x0 x1 x2 x3 x4 x5 x6 x7 x8 x9 x10 E i' q).trans ?_).symm
  refine Finset.sum_congr rfl fun j _ => ?_
  rw [Cert.RefRead.rw_apply]
  rfl

variable (m : (ℓ : Loc nD τ sig) → Buf (Elt Ideal) ℓ) (c : Dev nD)

/-- What region 1 leaves in its output array is the reference's per-edge result. -/
theorem out_eq : W4 m c main_v25 = val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  have h1 : W4 m c main_v25 = (dat1 (F := Ideal) (V3 m) c).arrAt 7 cfg1.N := W4_arr m c 7
  have h0 : W2 m c main_v23 = (dat0 (F := Ideal) (V1 m) c).arrAt 2 cfg0.N := W2_arr m c 2
  rw [h1, Val1.region1_final (V3 m) c, HostVal.tmp2_eq m c, h0, Val0.region0_final (V1 m) c, HostVal.feats_eq m c, HostVal.basis_eq m c,
    contract_ref]
  rw [show V3 m c main_arg3 = _ from HostVal.W3_main_arg3 m c, show V3 m c main_arg5 = _ from HostVal.W3_main_arg5 m c,
    show V3 m c main_arg6 = _ from HostVal.W3_main_arg6 m c, show V3 m c main_arg7 = _ from HostVal.W3_main_arg7 m c,
    show V3 m c main_arg8 = _ from HostVal.W3_main_arg8 m c, show V3 m c main_arg9 = _ from HostVal.W3_main_arg9 m c]
  exact final_ref _ _ _ _ _ _ _ _ _ _ _

/-- The three results at the return are the reference's results of the same arguments. -/
theorem result0 : W5 m c main_v29 = val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  rw [HostVal.res0_eq, HostVal.ref_res0, HostVal.W4_main_arg11, out_eq]
theorem result1 : W5 m c main_v30 = val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  rw [HostVal.res1_eq, HostVal.ref_res1, HostVal.W4_main_arg11, out_eq]
theorem result2 : W5 m c main_v31 = val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  rw [HostVal.res2_eq, HostVal.ref_res2, HostVal.W4_main_arg11, out_eq]

end Cert.KernelIdeal.Bridge

end
-- ==== Proof.lean ====
/-
  The certificate of the fused equivariant message-passing kernel against its reference.

  The kernel program gathers the source nodes' features and joins the three degrees, contracts them with the per-edge basis
  in a first pipelined region, reshapes, and in a second pipelined region runs the radial three-layer perceptron of
  each edge and multiplies its weights with the reshaped contraction; the edges' results are summed into their
  destination nodes and cut into the three degrees.  The reference computes the same with two batched products.

  * The three frames: the two kernel programs run as five segments (host stretch, region, reshape, region, host stretch)
    whose region bodies load whole blocks and store one value over the whole output block (`Fr.frame`, the same text
    at the word level and at the extended reals); the reference is a straight line of host operations.
  * The idealization rewrote nothing, so `preserves` asks nothing.
  * `algebraic`: the kernel program's three results, read off the last boundary of its run, are the reference's
    composed terms of the same arguments (`Bridge.result0/1/2`): the regions' output arrays are the reference's two
    batched products, entry by entry, each the same finite sum of the same products.
-/
import proofs.«120871_j74406013435996_2_alg».proof.Defs
import proofs.«120871_j74406013435996_2_alg».proof.Proof.Gen.Kernel
import proofs.«120871_j74406013435996_2_alg».proof.Proof.Gen.KernelIdeal
import proofs.«120871_j74406013435996_2_alg».proof.Proof.Gen.ReferenceIdeal
import proofs.«120871_j74406013435996_2_alg».proof.Proof.Gen.Pre_finite_inputs
import proofs.«120871_j74406013435996_2_alg».proof.Proof.Gen.ReferenceIdeal.Run
import proofs.«120871_j74406013435996_2_alg».proof.Proof.Gen.ReferenceIdeal.Read
import proofs.«120871_j74406013435996_2_alg».proof.Proof.KernelRun
import proofs.«120871_j74406013435996_2_alg».proof.Proof.KernelIdealRun
import proofs.«120871_j74406013435996_2_alg».proof.Proof.KernelBridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Fr.frame m ρ
theorem frame_ki : Cert.frame_KernelIdeal := fun m ρ _ => Cert.KernelIdeal.Fr.frame m ρ
/-- The reference's frame is its run with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

section
open Cert.KernelIdeal Cert.KernelIdeal.Fr

/-- The idealized kernel program's run with its three results named: each at the last boundary's contents, the arguments
    as launched. -/
theorem run_values (m : (ℓ : Loc nD τ sig) → Buf (Elt Ideal) ℓ) (ρ : Dev nD → PrngReg) :
    θ_run (Cert.KernelIdeal.defs (F := Ideal)) (onTc (τ := τ) (Cert.KernelIdeal.main (F := Ideal))) ⟨m, fun _ => 0, ρ⟩ (fun r => ∀ c : Dev nD,
      r.2.mem ((c.tc : Thread nD τ).loc main_v29) = W5 m c main_v29
      ∧ r.2.mem ((c.tc : Thread nD τ).loc main_v30) = W5 m c main_v30
      ∧ r.2.mem ((c.tc : Thread nD τ).loc main_v31) = W5 m c main_v31
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run Cert.KernelIdeal.defs _ _).mono (fun r h c => ⟨h c _ (mem_uc main_v29 (by decide)), h c _ (mem_uc main_v30 (by decide)), h c _ (mem_uc main_v31 (by decide)),
    (h c _ (mem_uc main_arg0 (by decide))).trans (W5_main_arg0 m c),
    (h c _ (mem_uc main_arg1 (by decide))).trans (W5_main_arg1 m c),
    (h c _ (mem_uc main_arg2 (by decide))).trans (W5_main_arg2 m c),
    (h c _ (mem_uc main_arg3 (by decide))).trans (W5_main_arg3 m c),
    (h c _ (mem_uc main_arg4 (by decide))).trans (W5_main_arg4 m c),
    (h c _ (mem_uc main_arg5 (by decide))).trans (W5_main_arg5 m c),
    (h c _ (mem_uc main_arg6 (by decide))).trans (W5_main_arg6 m c),
    (h c _ (mem_uc main_arg7 (by decide))).trans (W5_main_arg7 m c),
    (h c _ (mem_uc main_arg8 (by decide))).trans (W5_main_arg8 m c),
    (h c _ (mem_uc main_arg9 (by decide))).trans (W5_main_arg9 m c),
    (h c _ (mem_uc main_arg10 (by decide))).trans (W5_main_arg10 m c),
    (h c _ (mem_uc main_arg11 (by decide))).trans (W5_main_arg11 m c)⟩) (run_all m ρ)
end

/-- Both idealized programs, from memories agreeing on the arguments, end with equal results: the kernel program's, read off
    its run, are the reference's composed terms of the same arguments. -/
theorem algebraic : Cert.algebraic_KernelIdeal_ReferenceIdeal := by
  intro m ρ m' ρ' _ hagree
  refine ⟨fun c => Cert.KernelIdeal.Fr.W5 m c Cert.KernelIdeal.main_v29, fun c => Cert.KernelIdeal.Fr.W5 m c Cert.KernelIdeal.main_v30,
    fun c => Cert.KernelIdeal.Fr.W5 m c Cert.KernelIdeal.main_v31, run_values m ρ, ?_⟩
  refine (θ_run Cert.ReferenceIdeal.defs _ _).mono (fun _ h c => ⟨(h c).1.trans ?_, (h c).2.1.trans ?_, (h c).2.2.1.trans ?_, (h c).2.2.2⟩)
    (Cert.ReferenceIdeal.Value.run (F := Ideal) m' ρ')
  · rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]
    exact (Cert.ReferenceIdeal.Read.val_main_v41_eq _ _ _ _ _ _ _ _ _ _ _ _).trans (Cert.KernelIdeal.Bridge.result0 m c).symm
  · rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]
    exact (Cert.ReferenceIdeal.Read.val_main_v42_eq _ _ _ _ _ _ _ _ _ _ _ _).trans (Cert.KernelIdeal.Bridge.result1 m c).symm
  · rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]
    exact (Cert.ReferenceIdeal.Read.val_main_v43_eq _ _ _ _ _ _ _ _ _ _ _ _).trans (Cert.KernelIdeal.Bridge.result2 m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
